-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S200x10000 : Shape := ⟨2, ![200, 10000]⟩
abbrev S400x128 : Shape := ⟨2, ![400, 128]⟩
abbrev S200x128 : Shape := ⟨2, ![200, 128]⟩

abbrev nBuf : Space → Nat
  | .hbm => 6
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S10000x128, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x128, .f32⟩
  | .local _ .vmem, ⟨5, _⟩ => ⟨S128x128, .f32⟩
  | .local _ .vmem, ⟨6, _⟩ => ⟨S1x128, .f32⟩
  | .local _ .vmem, ⟨7, _⟩ => ⟨S400x128, .f32⟩
  | .local _ .vmem, ⟨8, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c2_i32 : BitVec 32 := 2#32
  let v12 : BitVec 32 := Scalar.muli arg0 c2_i32
  let c200_i32 : BitVec 32 := 200#32
  let v13 : BitVec 32 := Scalar.muli v12 c200_i32
  let v14 : Index := Scalar.indexCast v13
  let c0_16 : Index := 0#32
  ![v14.toNat, 0]
def k0_off2 (i : grid0.Coords) : Fin 2 → Nat :=
  let arg0 : BitVec 32 := BitVec.ofNat 32 (i 0).val
  let c2_i32 : BitVec 32 := 2#32
  let v12 : BitVec 32 := Scalar.muli arg0 c2_i32
  let c200_i32 : BitVec 32 := 200#32
  let v13 : BitVec 32 := Scalar.muli v12 c200_i32
  let c200_i32_17 : BitVec 32 := 200#32
  let v16 : BitVec 32 := Scalar.addi v13 c200_i32_17
  let v17 : Index := Scalar.indexCast v16
  let c0_18 : Index := 0#32
  ![v17.toNat, 0]
def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S128_S1x128 : S128.ShapeCasts S1x128
  inb_S200x10000_S200x10000_0_0 : ∀ a, (![0, 0] : Fin 2 → Nat) a + S200x10000.size a ≤ S200x10000.size a
  h_S200x10000 : 0 < S200x10000.numel
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  h_S200x128 : 0 < S200x128.numel
  broadcasts_S1x128_S200x128 : S1x128.Broadcasts S200x128
  inb_S400x128_S200x128_0_0 : ∀ a, (![0, 0] : Fin 2 → Nat) a + S200x128.size a ≤ S400x128.size a
  inb_S400x128_S200x128_200_0 : ∀ a, (![200, 0] : Fin 2 → Nat) a + S200x128.size a ≤ S400x128.size a
  dot_S200x10000_S10000x128_S200x128_1_0_0_1_n_n_wf : DotDims.WF S200x10000 S10000x128 S200x128 [1] [0] [0] [1] [] []
  dot_S200x128_S128x128_S200x128_1_0_0_1_n_n_wf : DotDims.WF S200x128 S128x128 S200x128 [1] [0] [0] [1] [] []
  hrank0 : 0 < grid0.rank
  k0_off1_inb : ∀ i : grid0.Coords, ∀ a, (k0_off1 i) a + S200x128.size a ≤ S10000x128.size a
  k0_off2_inb : ∀ i : grid0.Coords, ∀ a, (k0_off2 i) a + S200x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)

variable [Facts₀]

def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S10000x128, .f32⟩
  | .hbm, ⟨6, _⟩ => ⟨S1x128, .f32⟩
  | .hbm, ⟨7, _⟩ => ⟨S10000x128, .f32⟩
  | .hbm, ⟨8, _⟩ => ⟨S10000x128, .f32⟩
  | .hbm, ⟨9, _⟩ => ⟨S10000x128, .f32⟩
  | .hbm, ⟨10, _⟩ => ⟨S_, .f32⟩
  | .hbm, ⟨11, _⟩ => ⟨S10000x128, .f32⟩
  | .hbm, ⟨12, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Bits.Entry.lean ====
/-
  The program up to its one region. @main is a single host operation, the bias vector b : [128] recast as the
  row [1, 128], followed by the pallas_call. So when the region is entered every buffer holds what @main was
  launched with, except the buffer of that row; in particular the four arguments are as launched.
-/
import proofs.«102684_g13692355740361_cont_week2b_1267_22_alg».proof.Proof.Gen.Kernel.Launch
import proofs.«102684_g13692355740361_cont_week2b_1267_22_alg».proof.Proof.Gen.Kernel.Skeleton
import proofs.«102684_g13692355740361_cont_week2b_1267_22_alg».proof.Proof.Gen.Kernel.Points
import Idealize.ShloMosaic.Lib.Pipeline.FrameBody
import Idealize.ShloMosaic.Lib.Ring
import Idealize.ShloMosaic.Lib.Tactic

-- membership in a rectangle of these extents is decided by a structural look that recurses once per coordinate
set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents when the region is entered -/

/-- Core `c`'s buffers when the region is entered: the launch contents after the one host operation. -/
abbrev entry (c : Dev nD) (b : Ref sig .tc) : Buf (Elt F) ((c : Thread nD τ).loc b) :=
  StableHlo.after hostOps0 (fun b => m (c, b)) b

/-- The host operation allocates nothing. -/
theorem hostOps0_fresh : (hostOps0 : List (HloOp τ sig (Elt F))).Forall fun op => op.fresh = ∅ := by
  simp only [List.Forall]; repeat' constructor

/-- @main is the host operation and then the region, entered at `entry`. -/
theorem main_to_region (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-! ## The arguments are as launched: the recast writes none of them -/

theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))

theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))

theorem entry_arg2 (c : Dev nD) : entry m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))

theorem entry_arg3 (c : Dev nD) : entry m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    exact StableHlo.devRef_ne_of_ne (by decide)))

end Cert.Kernel.Region

end
-- ==== Proof.Bits.Blocks.lean ====
/-
  The blocks the pipeline hands the body. Window `w`'s block at grid point `t` is the part of its array, as the
  region finds it, that the window's index map selects at `t`: for the two adjacency windows rows 400 t .. 400 t + 199
  and 400 t + 200 .. 400 t + 399 of adj; for x, W and the bias row the whole array at every point. The body only reads
  its input windows, so each input window's staging buffer holds its block at every point, whether the pipeline
  fetched it at that point or, the block index not having moved, at an earlier one.
-/
import proofs.«102684_g13692355740361_cont_week2b_1267_22_alg».proof.Proof.Bits.Entry

-- membership in a rectangle of these extents is decided by a structural look that recurses once per coordinate
set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at point `t`, read off its array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (entry m c (Pipeline.arrRef spec0 w))

/-! ## An input window's buffer holds its block at every point

For any proof data whose array is the region-entry contents (`hA`) and whose body leaves the block in place
(`hafter`): fetched at the point, the buffer holds the block; not fetched, the block index has not moved since the
last fetch and the buffer still holds that block, which is this point's. -/

theorem holds_block_0 {c : Dev nD} (dat : Dat τ (Elt F) Unit ℕ (UR sig nD τ) ℕ cfg0 c)
    (hA : dat.A 0 = entry m c (Pipeline.arrRef spec0 0)) (hafter : ∀ t, dat.after 0 t = blockAt m c 0 t)
    (t : Fin cfg0.N) (d) : dat.before 0 t d = blockAt m c 0 t :=
  (dat.before_in_eq_fetched 0 rfl (fun _ => rfl) (fun _ _ _ => rfl)
      (fun t => by rw [hafter]; unfold Dat.blockOf blockAt; rw [hA]; try rfl) t d).trans
    (by unfold Dat.fetched Dat.blockOf blockAt; rw [hA]; try rfl)

theorem holds_block_1 {c : Dev nD} (dat : Dat τ (Elt F) Unit ℕ (UR sig nD τ) ℕ cfg0 c)
    (hA : dat.A 1 = entry m c (Pipeline.arrRef spec0 1)) (hafter : ∀ t, dat.after 1 t = blockAt m c 1 t)
    (t : Fin cfg0.N) (d) : dat.before 1 t d = blockAt m c 1 t :=
  (dat.before_in_eq_fetched 1 rfl (fun _ => rfl) (fun _ _ _ => rfl)
      (fun t => by rw [hafter]; unfold Dat.blockOf blockAt; rw [hA]; try rfl) t d).trans
    (by unfold Dat.fetched Dat.blockOf blockAt; rw [hA]; try rfl)

theorem holds_block_2 {c : Dev nD} (dat : Dat τ (Elt F) Unit ℕ (UR sig nD τ) ℕ cfg0 c)
    (hA : dat.A 2 = entry m c (Pipeline.arrRef spec0 2)) (hafter : ∀ t, dat.after 2 t = blockAt m c 2 t)
    (t : Fin cfg0.N) (d) : dat.before 2 t d = blockAt m c 2 t :=
  (dat.before_in_eq_fetched 2 rfl (fun _ => rfl) (fun _ _ _ => rfl)
      (fun t => by rw [hafter]; unfold Dat.blockOf blockAt; rw [hA]; try rfl) t d).trans
    (by unfold Dat.fetched Dat.blockOf blockAt; rw [hA]; try rfl)

theorem holds_block_3 {c : Dev nD} (dat : Dat τ (Elt F) Unit ℕ (UR sig nD τ) ℕ cfg0 c)
    (hA : dat.A 3 = entry m c (Pipeline.arrRef spec0 3)) (hafter : ∀ t, dat.after 3 t = blockAt m c 3 t)
    (t : Fin cfg0.N) (d) : dat.before 3 t d = blockAt m c 3 t :=
  (dat.before_in_eq_fetched 3 rfl (fun _ => rfl) (fun _ _ _ => rfl)
      (fun t => by rw [hafter]; unfold Dat.blockOf blockAt; rw [hA]; try rfl) t d).trans
    (by unfold Dat.fetched Dat.blockOf blockAt; rw [hA]; try rfl)

theorem holds_block_4 {c : Dev nD} (dat : Dat τ (Elt F) Unit ℕ (UR sig nD τ) ℕ cfg0 c)
    (hA : dat.A 4 = entry m c (Pipeline.arrRef spec0 4)) (hafter : ∀ t, dat.after 4 t = blockAt m c 4 t)
    (t : Fin cfg0.N) (d) : dat.before 4 t d = blockAt m c 4 t :=
  (dat.before_in_eq_fetched 4 rfl (fun _ => rfl) (fun _ _ _ => rfl)
      (fun t => by rw [hafter]; unfold Dat.blockOf blockAt; rw [hA]; try rfl) t d).trans
    (by unfold Dat.fetched Dat.blockOf blockAt; rw [hA]; try rfl)

end Cert.Kernel.Region

end
-- ==== Proof.Bits.Body.lean ====
/-
  One run of the kernel body. At grid point `i` the body reads its two blocks of adjacency rows `a0`, `a1`
  (200 × 10000 each), the whole of x (10000 × 128), W (128 × 128) and the bias row (1 × 128), and the rows
  400 i .. 400 i + 199 and 400 i + 200 .. 400 i + 399 of x once more, and stores two 200 × 128 results into the
  top and the bottom half of its 400 × 128 output block: max ((a0 · x) · W + x_rows + bias, 0) and the same of a1.
  The two halves tile the block, so what the body leaves there is a function of what it read alone (`stored`),
  whatever the block held before. The input buffers are left as they were.
-/
import proofs.«102684_g13692355740361_cont_week2b_1267_22_alg».proof.Proof.Bits.Entry

-- membership in a rectangle of these extents is decided by a structural look that recurses once per coordinate
set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the body reads and writes through -/

abbrev adjBox : Rect S200x10000 := Rect.unit (s := S200x10000) ![0, 0] S200x10000.size inb_S200x10000_S200x10000_0_0
abbrev xBox : Rect S10000x128 := Rect.unit (s := S10000x128) ![0, 0] S10000x128.size inb_S10000x128_S10000x128_0_0
abbrev wBox : Rect S128x128 := Rect.unit (s := S128x128) ![0, 0] S128x128.size inb_S128x128_S128x128_0_0
abbrev biasBox : Rect S1x128 := Rect.unit (s := S1x128) ![0, 0] S1x128.size inb_S1x128_S1x128_0_0
/-- Rows 400 i .. 400 i + 199 of x: the residual rows of the first half. -/
abbrev xRowsTop (i : grid0.Coords) : Rect S10000x128 := Rect.unit (s := S10000x128) (k0_off1 i) S200x128.size (k0_off1_inb i)
/-- Rows 400 i + 200 .. 400 i + 399 of x: the residual rows of the second half. -/
abbrev xRowsBottom (i : grid0.Coords) : Rect S10000x128 := Rect.unit (s := S10000x128) (k0_off2 i) S200x128.size (k0_off2_inb i)
abbrev outTop : Rect S400x128 := Rect.unit (s := S400x128) ![0, 0] S200x128.size inb_S400x128_S200x128_0_0
abbrev outBottom : Rect S400x128 := Rect.unit (s := S400x128) ![200, 0] S200x128.size inb_S400x128_S200x128_200_0

/-! ## What the body leaves in the output block -/

/-- The output block after the body at point `i`, from what the input buffers read: the bottom half's store laid
    over the top half's (the later store first). -/
def stored (i : grid0.Coords) (a0 a1 : Vec F S200x10000 .f32) (x : Vec F S10000x128 .f32) (w : Vec F S128x128 .f32)
    (b : Vec F S1x128 .f32) : Vec F S400x128 .f32 :=
  View.canon
    [⟨outBottom, k0_pay3 (View.ld a1 adjBox) (View.ld x xBox) (View.ld w wBox) (View.ld b biasBox) (View.ld x (xRowsBottom i))⟩,
     ⟨outTop, k0_pay2 (View.ld a0 adjBox) (View.ld x xBox) (View.ld w wBox) (View.ld b biasBox) (View.ld x (xRowsTop i))⟩]

/-- The two halves tile the block, so every index of it lies in one of them. -/
theorem halves_cover (p0 p1 : Vec F S200x128 .f32) (y : S400x128.Idx) :
    ∃ pc ∈ ([⟨outBottom, p1⟩, ⟨outTop, p0⟩] : List (View.Piece (Elt F) S400x128 .f32)), y ∈ pc.1.set :=
  View.cover_of_tiled [⟨outBottom, p1⟩, ⟨outTop, p0⟩] S200x128.size (by rfl) y

/-! ## The body's triple -/

set_option maxHeartbeats 1000000 in
/-- The body on whole staging buffers, the inputs' reading `a0 a1 x w b` and the output's holding anything, runs to
    the continuation with the inputs' as they were and the output's reading `stored`. -/
theorem body_runs (c : Dev nD) (E : Set ℕ) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S400x128 .f32) (harg6 : arg6.IsWhole)
    (a0 a1 : Vec F S200x10000 .f32) (x : Vec F S10000x128 .f32) (w : Vec F S128x128 .f32) (b : Vec F S1x128 .f32)
    (K : PUnit → sProp 𝕄) :
    iprop(owns (c : Thread nD τ) arg1 fullShare a0 ∗ owns (c : Thread nD τ) arg2 fullShare a1
        ∗ owns (c : Thread nD τ) arg3 fullShare x ∗ owns (c : Thread nD τ) arg4 fullShare w
        ∗ owns (c : Thread nD τ) arg5 fullShare b ∗ (∃ d, owns (c : Thread nD τ) arg6 fullShare d)
        ∗ (iprop(owns (c : Thread nD τ) arg1 fullShare a0 ∗ owns (c : Thread nD τ) arg2 fullShare a1
            ∗ owns (c : Thread nD τ) arg3 fullShare x ∗ owns (c : Thread nD τ) arg4 fullShare w
            ∗ owns (c : Thread nD τ) arg5 fullShare b
            ∗ owns (c : Thread nD τ) arg6 fullShare (stored i a0 a1 x w b)) -∗ K ⟨⟩))
      ⊢ wp frame (wpE (defs₀ (F := F)) Variants.none c none) E
          (cc0__gcn_body i arg1 harg1 arg2 harg2 arg3 harg3 arg4 harg4 arg5 harg5 arg6 harg6) K := by
  simp only [cc0__gcn_body_eq_skeleton]; unfold cc0__gcn_body_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (halves_cover _ _)

end Cert.Kernel.Region

end
-- ==== Proof.Bits.Data.lean ====
/-
  The region's proof data and the body's obligation at every grid point. On entry each window's array holds what the
  region finds (`entry`). After the body at point `t` each input window's buffer holds its block, as before the body,
  and the output window's buffer holds `stored` of the five input blocks at `t`. Nothing is carried from point to
  point but the kernel's scratch, of which there is none. The adjacency matrix is read through two windows; the
  pipeline holds its buffer once, so each of the two windows is given one half of the buffer's share, which is enough
  to read; the other arrays are held whole.
-/
import proofs.«102684_g13692355740361_cont_week2b_1267_22_alg».proof.Proof.Bits.Blocks
import proofs.«102684_g13692355740361_cont_week2b_1267_22_alg».proof.Proof.Bits.Body

-- membership in a rectangle of these extents is decided by a structural look that recurses once per coordinate
set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The proof data of the region on core `c`. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => stored (grid0.coords t) (blockAt m c 0 t) (blockAt m c 1 t) (blockAt m c 2 t) (blockAt m c 3 t) (blockAt m c 4 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

/-- The proof data's arrays are the region-entry contents. -/
theorem entry_is_A (c : Dev nD) (w : Fin cfg0.W) : (dats m 0 c).A w = entry m c (Pipeline.arrRef spec0 w) := by
  dsimp only [dats]

/-! ## What the body leaves, window by window -/

theorem left_0 (c : Dev nD) (t : Fin cfg0.N) : (dats m 0 c).after 0 t = blockAt m c 0 t := by dsimp only [dats]
theorem left_1 (c : Dev nD) (t : Fin cfg0.N) : (dats m 0 c).after 1 t = blockAt m c 1 t := by dsimp only [dats]
theorem left_2 (c : Dev nD) (t : Fin cfg0.N) : (dats m 0 c).after 2 t = blockAt m c 2 t := by dsimp only [dats]
theorem left_3 (c : Dev nD) (t : Fin cfg0.N) : (dats m 0 c).after 3 t = blockAt m c 3 t := by dsimp only [dats]
theorem left_4 (c : Dev nD) (t : Fin cfg0.N) : (dats m 0 c).after 4 t = blockAt m c 4 t := by dsimp only [dats]
theorem left_5 (c : Dev nD) (t : Fin cfg0.N) :
    (dats m 0 c).after 5 t
      = stored (grid0.coords t) (blockAt m c 0 t) (blockAt m c 1 t) (blockAt m c 2 t) (blockAt m c 3 t) (blockAt m c 4 t) := by
  dsimp only [dats]

/-! ## What the body finds in each input window's buffer -/

theorem found_0 (c : Dev nD) (t : Fin cfg0.N) (d) : (dats m 0 c).before 0 t d = blockAt m c 0 t :=
  holds_block_0 m (dats m 0 c) (entry_is_A m c 0) (left_0 m c) t d
theorem found_1 (c : Dev nD) (t : Fin cfg0.N) (d) : (dats m 0 c).before 1 t d = blockAt m c 1 t :=
  holds_block_1 m (dats m 0 c) (entry_is_A m c 1) (left_1 m c) t d
theorem found_2 (c : Dev nD) (t : Fin cfg0.N) (d) : (dats m 0 c).before 2 t d = blockAt m c 2 t :=
  holds_block_2 m (dats m 0 c) (entry_is_A m c 2) (left_2 m c) t d
theorem found_3 (c : Dev nD) (t : Fin cfg0.N) (d) : (dats m 0 c).before 3 t d = blockAt m c 3 t :=
  holds_block_3 m (dats m 0 c) (entry_is_A m c 3) (left_3 m c) t d
theorem found_4 (c : Dev nD) (t : Fin cfg0.N) (d) : (dats m 0 c).before 4 t d = blockAt m c 4 t :=
  holds_block_4 m (dats m 0 c) (entry_is_A m c 4) (left_4 m c) t d

/-! ## The obligation at a generic point -/

/-- What the body is called with at point `t`, the windows one by one; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and what
    the core owes pass through unread. -/
theorem body_at_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_0, found_1, found_2, found_3, found_4]
  rw [show (dats m 0 c).Φ t.succ = (dats m 0 c).Φ t.castSucc from rfl,
    show (dats m 0 c).owesAt () t.succ = (dats m 0 c).owesAt () t.castSucc from rfl,
    left_0, left_1, left_2, left_3, left_4, left_5]
  iintro ⟨HΦ, Ho, ⟨%d0, H0⟩, ⟨%d1, H1⟩, ⟨%d2, H2⟩, ⟨%d3, H3⟩, ⟨%d4, H4⟩, ⟨%d5, H5⟩⟩
  iapply (body_runs c Set.univ (grid0.coords t) _ _ _ _ _ _ _ _ _ _ _ _
    (blockAt m c 0 t) (blockAt m c 1 t) (blockAt m c 2 t) (blockAt m c 3 t) (blockAt m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation (c : Dev nD) :
    BodyObligation (dats (F := F) m 0 c) (defs₀ (F := F)) Variants.none () Set.univ := fun t => by
  rw [bigSep_W0, bigSep_W0]
  exact body_at_point m c t

end Cert.Kernel.Region

end
-- ==== Proof.Bits.Run.lean ====
/-
  The launch. The pipeline asks, at the region's entry, for every window's array at the share the proof data names;
  the launch hands over every DISTINCT buffer behind the windows, whole, at the full share. Five of the six windows
  have a buffer of their own. The two adjacency windows read one buffer, adj: its full share is divided into its left
  and right halves, one for each window — either half is a positive share of every element, which is all a window
  that is only fetched from needs, and the two halves are given back together when the region ends, both still at the
  entry contents. With that division the launch theorem for windows that may share arrays applies; its post says that
  each window's array ends at what the write-backs leave (for an input: its entry contents) and that every buffer no
  window stages ends as the region found it. The four arguments are inputs or unstaged: they end as launched.
-/
import proofs.«102684_g13692355740361_cont_week2b_1267_22_alg».proof.Proof.Bits.Data

-- membership in a rectangle of these extents is decided by a structural look that recurses once per coordinate
set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The shares at entry -/

/-- A window's array at its share and at its entry contents, as a plain points-to of the buffer behind it: the
    array is the whole buffer. -/
theorem window_array (c : Dev nD) (w : Fin cfg0.W) :
    ((cfg0.win w).arr.view.loc (c.tc : Thread nD τ) ↦[(cfg0.win w).arr.view.set]{(dats m 0 c).share w} (dats m 0 c).arrAt w 0 : sProp 𝕄)
      = ((c.tc : Thread nD τ).loc (Pipeline.arrRef spec0 w) ↦{(dats m 0 c).share w} entry m c (Pipeline.arrRef spec0 w)) := by
  rw [(arr_whole0 w).set_eq_univ]; rfl

/-- The distinct buffers behind the windows, each whole at the full share at the entry contents, yield each window's
    array at its share: adj's full share as its two halves. -/
theorem arrays_at_entry (c : Dev nD) :
    (Pipeline.arrBufs (Ix := Unit) (Name := ℕ) (U := UR sig nD τ) (Lvl := ℕ) spec0 c (entry m c) : sProp 𝕄)
      ⊢ (dats m 0 c).arrays ((dats m 0 c).arrAt · 0) := by
  unfold Pipeline.arrBufs Dat.arrays
  rw [bigSep_congr (fun w _ => window_array m c w),
    bigSep_eq_bigSepL_of_eq [main_arg1, main_arg0, main_arg2, main_call0_v0, main_v0] (by decide) (by decide), bigSep_W0]
  show iprop((((c.tc : Thread nD τ).loc main_arg1) ↦{fullShare} entry m c main_arg1)
    ∗ (((c.tc : Thread nD τ).loc main_arg0) ↦{fullShare} entry m c main_arg0)
    ∗ (((c.tc : Thread nD τ).loc main_arg2) ↦{fullShare} entry m c main_arg2)
    ∗ (((c.tc : Thread nD τ).loc main_call0_v0) ↦{fullShare} entry m c main_call0_v0)
    ∗ (((c.tc : Thread nD τ).loc main_v0) ↦{fullShare} entry m c main_v0))
    ⊢ iprop((((c.tc : Thread nD τ).loc main_arg1) ↦{fullShare.left} entry m c main_arg1)
    ∗ (((c.tc : Thread nD τ).loc main_arg1) ↦{fullShare.right} entry m c main_arg1)
    ∗ (((c.tc : Thread nD τ).loc main_arg0) ↦{fullShare} entry m c main_arg0)
    ∗ (((c.tc : Thread nD τ).loc main_arg2) ↦{fullShare} entry m c main_arg2)
    ∗ (((c.tc : Thread nD τ).loc main_call0_v0) ↦{fullShare} entry m c main_call0_v0)
    ∗ (((c.tc : Thread nD τ).loc main_v0) ↦{fullShare} entry m c main_v0))
  have halves : ((((c.tc : Thread nD τ).loc main_arg1) ↦{fullShare} entry m c main_arg1 : sProp 𝕄))
      ⊢ iprop((((c.tc : Thread nD τ).loc main_arg1) ↦{fullShare.left} entry m c main_arg1)
        ∗ (((c.tc : Thread nD τ).loc main_arg1) ↦{fullShare.right} entry m c main_arg1)) :=
    (pointsTo_share (PosShare.mem_left_op_right fullShare)).1
  iintro ⟨Hadj, Hx, Hw, Hb, Ho⟩
  ihave H := halves $$ Hadj
  icases H with ⟨Hl, Hr⟩
  isplitl [Hl]; · iexact Hl
  isplitl [Hr]; · iexact Hr
  isplitl [Hx]; · iexact Hx
  isplitl [Hw]; · iexact Hw
  isplitl [Hb]; · iexact Hb
  iexact Ho

/-! ## The run -/

/-- Between any two points the region keeps nothing but the kernel's scratch. -/
theorem invariant_is (c : Dev nD) (t : Fin (cfg0.N + 1)) :
    (dats m 0 c).Φ t
      = Pipeline.scopedRest (Ix := Unit) (Name := ℕ) (U := UR sig nD τ) (Lvl := ℕ) (Val := Elt F) spec0 c := by
  dsimp only [dats]

-- the launch theorem's implicit arguments are found by unifying its conclusion with this one, which takes unfolding
-- plain definitions in a metavariable's type
set_option backward.isDefEq.respectTransparency.types false in
/-- From any memory with zero counters, every weakly fair execution of @main terminates, and in every final state each
    window's array holds what the write-backs leave of the proof data and every buffer no window stages holds what the
    region found. -/
theorem run_region :
    θ_run defs (onTc (τ := τ) (main (F := F))) (s₀ m ρ) (Pipeline.FramePost cfgs (dats m) 0 (entry m)) := by
  classical
  exact Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := entry m) (hmain := main_to_region m Variants.none)
    (hsplit := arrays_at_entry m)
    (X := fun _ => iprop(emp)) (Y := fun _ => iprop(emp))
    (Z := fun c => Pipeline.unscopedRest (Ix := Unit) (Name := ℕ) (U := UR sig nD τ) (Lvl := ℕ) spec0 c (entry m c))
    (hX := fun c => by
      iintro H; isplitr; · iempintro
      iexact H)
    (hin := fun c => by rw [invariant_is]; iintro ⟨-, H⟩; iexact H)
    (hout := fun c => by
      rw [invariant_is]
      iintro H; isplitr; · iempintro
      iexact H)
    (QY := fun c s => ∀ b ∈ Pipeline.restRefs sig spec0, s.mem ((c.tc : Thread nD τ).loc b) = entry m c b)
    (hY := fun c s' => by
      iintro ⟨-, HU, HSI⟩
      unfold Pipeline.unscopedRest
      imodintro
      iapply (pointsTo_read_all (Pipeline.restRefs sig spec0) (fun b => (c.tc : Thread nD τ).loc b) (entry m c) s')
      isplitl [HU] <;> iassumption)
    (hQ := fun s h c => ⟨(h c).1, (h c).2⟩)

/-! ## The frame -/

/-- @main runs to the end without a fault and its four arguments end as launched: x, adj and W are arrays of input
    windows, never written back; the bias vector is staged by no window and bypasses the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 2).trans (((dats m 0 c).arrAt_in 2 rfl _).trans ((entry_is_A m c 2).trans (entry_arg0 m c))),
     ((h c).1 0).trans (((dats m 0 c).arrAt_in 0 rfl _).trans ((entry_is_A m c 0).trans (entry_arg1 m c))),
     ((h c).1 3).trans (((dats m 0 c).arrAt_in 3 rfl _).trans ((entry_is_A m c 3).trans (entry_arg2 m c))),
     ((h c).2 main_arg3 (Pipeline.mem_restRefs_of main_arg3 rfl (by decide))).trans (entry_arg3 m c)⟩) (run_region m ρ)

end Cert.Kernel.Region

end
-- ==== Proof.Ideal.Entry.lean ====
/-
  The program up to its one region. @main is a single host operation, the bias vector b : [128] recast as the
  row [1, 128], followed by the pallas_call. So when the region is entered every buffer holds what @main was
  launched with, except the buffer of that row; in particular the four arguments are as launched.
-/
import proofs.«102684_g13692355740361_cont_week2b_1267_22_alg».proof.Proof.Gen.KernelIdeal.Launch
import proofs.«102684_g13692355740361_cont_week2b_1267_22_alg».proof.Proof.Gen.KernelIdeal.Skeleton
import proofs.«102684_g13692355740361_cont_week2b_1267_22_alg».proof.Proof.Gen.KernelIdeal.Points
import Idealize.ShloMosaic.Lib.Pipeline.FrameBody
import Idealize.ShloMosaic.Lib.Ring
import Idealize.ShloMosaic.Lib.Tactic

-- membership in a rectangle of these extents is decided by a structural look that recurses once per coordinate
set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents when the region is entered -/

/-- Core `c`'s buffers when the region is entered: the launch contents after the one host operation. -/
abbrev entry (c : Dev nD) (b : Ref sig .tc) : Buf (Elt F) ((c : Thread nD τ).loc b) :=
  StableHlo.after hostOps0 (fun b => m (c, b)) b

/-- The host operation allocates nothing. -/
theorem hostOps0_fresh : (hostOps0 : List (HloOp τ sig (Elt F))).Forall fun op => op.fresh = ∅ := by
  simp only [List.Forall]; repeat' constructor

/-- @main is the host operation and then the region, entered at `entry`. -/
theorem main_to_region (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-! ## The arguments are as launched: the recast writes none of them -/

theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))

theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))

theorem entry_arg2 (c : Dev nD) : entry m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))

theorem entry_arg3 (c : Dev nD) : entry m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    exact StableHlo.devRef_ne_of_ne (by decide)))

end Cert.KernelIdeal.Region

end
-- ==== Proof.Ideal.Blocks.lean ====
/-
  The blocks the pipeline hands the body. Window `w`'s block at grid point `t` is the part of its array, as the
  region finds it, that the window's index map selects at `t`: for the two adjacency windows rows 400 t .. 400 t + 199
  and 400 t + 200 .. 400 t + 399 of adj; for x, W and the bias row the whole array at every point. The body only reads
  its input windows, so each input window's staging buffer holds its block at every point, whether the pipeline
  fetched it at that point or, the block index not having moved, at an earlier one.
-/
import proofs.«102684_g13692355740361_cont_week2b_1267_22_alg».proof.Proof.Ideal.Entry

-- membership in a rectangle of these extents is decided by a structural look that recurses once per coordinate
set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at point `t`, read off its array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (entry m c (Pipeline.arrRef spec0 w))

/-! ## An input window's buffer holds its block at every point

For any proof data whose array is the region-entry contents (`hA`) and whose body leaves the block in place
(`hafter`): fetched at the point, the buffer holds the block; not fetched, the block index has not moved since the
last fetch and the buffer still holds that block, which is this point's. -/

theorem holds_block_0 {c : Dev nD} (dat : Dat τ (Elt F) Unit ℕ (UR sig nD τ) ℕ cfg0 c)
    (hA : dat.A 0 = entry m c (Pipeline.arrRef spec0 0)) (hafter : ∀ t, dat.after 0 t = blockAt m c 0 t)
    (t : Fin cfg0.N) (d) : dat.before 0 t d = blockAt m c 0 t :=
  (dat.before_in_eq_fetched 0 rfl (fun _ => rfl) (fun _ _ _ => rfl)
      (fun t => by rw [hafter]; unfold Dat.blockOf blockAt; rw [hA]; try rfl) t d).trans
    (by unfold Dat.fetched Dat.blockOf blockAt; rw [hA]; try rfl)

theorem holds_block_1 {c : Dev nD} (dat : Dat τ (Elt F) Unit ℕ (UR sig nD τ) ℕ cfg0 c)
    (hA : dat.A 1 = entry m c (Pipeline.arrRef spec0 1)) (hafter : ∀ t, dat.after 1 t = blockAt m c 1 t)
    (t : Fin cfg0.N) (d) : dat.before 1 t d = blockAt m c 1 t :=
  (dat.before_in_eq_fetched 1 rfl (fun _ => rfl) (fun _ _ _ => rfl)
      (fun t => by rw [hafter]; unfold Dat.blockOf blockAt; rw [hA]; try rfl) t d).trans
    (by unfold Dat.fetched Dat.blockOf blockAt; rw [hA]; try rfl)

theorem holds_block_2 {c : Dev nD} (dat : Dat τ (Elt F) Unit ℕ (UR sig nD τ) ℕ cfg0 c)
    (hA : dat.A 2 = entry m c (Pipeline.arrRef spec0 2)) (hafter : ∀ t, dat.after 2 t = blockAt m c 2 t)
    (t : Fin cfg0.N) (d) : dat.before 2 t d = blockAt m c 2 t :=
  (dat.before_in_eq_fetched 2 rfl (fun _ => rfl) (fun _ _ _ => rfl)
      (fun t => by rw [hafter]; unfold Dat.blockOf blockAt; rw [hA]; try rfl) t d).trans
    (by unfold Dat.fetched Dat.blockOf blockAt; rw [hA]; try rfl)

theorem holds_block_3 {c : Dev nD} (dat : Dat τ (Elt F) Unit ℕ (UR sig nD τ) ℕ cfg0 c)
    (hA : dat.A 3 = entry m c (Pipeline.arrRef spec0 3)) (hafter : ∀ t, dat.after 3 t = blockAt m c 3 t)
    (t : Fin cfg0.N) (d) : dat.before 3 t d = blockAt m c 3 t :=
  (dat.before_in_eq_fetched 3 rfl (fun _ => rfl) (fun _ _ _ => rfl)
      (fun t => by rw [hafter]; unfold Dat.blockOf blockAt; rw [hA]; try rfl) t d).trans
    (by unfold Dat.fetched Dat.blockOf blockAt; rw [hA]; try rfl)

theorem holds_block_4 {c : Dev nD} (dat : Dat τ (Elt F) Unit ℕ (UR sig nD τ) ℕ cfg0 c)
    (hA : dat.A 4 = entry m c (Pipeline.arrRef spec0 4)) (hafter : ∀ t, dat.after 4 t = blockAt m c 4 t)
    (t : Fin cfg0.N) (d) : dat.before 4 t d = blockAt m c 4 t :=
  (dat.before_in_eq_fetched 4 rfl (fun _ => rfl) (fun _ _ _ => rfl)
      (fun t => by rw [hafter]; unfold Dat.blockOf blockAt; rw [hA]; try rfl) t d).trans
    (by unfold Dat.fetched Dat.blockOf blockAt; rw [hA]; try rfl)

end Cert.KernelIdeal.Region

end
-- ==== Proof.Ideal.Body.lean ====
/-
  One run of the kernel body. At grid point `i` the body reads its two blocks of adjacency rows `a0`, `a1`
  (200 × 10000 each), the whole of x (10000 × 128), W (128 × 128) and the bias row (1 × 128), and the rows
  400 i .. 400 i + 199 and 400 i + 200 .. 400 i + 399 of x once more, and stores two 200 × 128 results into the
  top and the bottom half of its 400 × 128 output block: max ((a0 · x) · W + x_rows + bias, 0) and the same of a1.
  The two halves tile the block, so what the body leaves there is a function of what it read alone (`stored`),
  whatever the block held before. The input buffers are left as they were.
-/
import proofs.«102684_g13692355740361_cont_week2b_1267_22_alg».proof.Proof.Ideal.Entry

-- membership in a rectangle of these extents is decided by a structural look that recurses once per coordinate
set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the body reads and writes through -/

abbrev adjBox : Rect S200x10000 := Rect.unit (s := S200x10000) ![0, 0] S200x10000.size inb_S200x10000_S200x10000_0_0
abbrev xBox : Rect S10000x128 := Rect.unit (s := S10000x128) ![0, 0] S10000x128.size inb_S10000x128_S10000x128_0_0
abbrev wBox : Rect S128x128 := Rect.unit (s := S128x128) ![0, 0] S128x128.size inb_S128x128_S128x128_0_0
abbrev biasBox : Rect S1x128 := Rect.unit (s := S1x128) ![0, 0] S1x128.size inb_S1x128_S1x128_0_0
/-- Rows 400 i .. 400 i + 199 of x: the residual rows of the first half. -/
abbrev xRowsTop (i : grid0.Coords) : Rect S10000x128 := Rect.unit (s := S10000x128) (k0_off1 i) S200x128.size (k0_off1_inb i)
/-- Rows 400 i + 200 .. 400 i + 399 of x: the residual rows of the second half. -/
abbrev xRowsBottom (i : grid0.Coords) : Rect S10000x128 := Rect.unit (s := S10000x128) (k0_off2 i) S200x128.size (k0_off2_inb i)
abbrev outTop : Rect S400x128 := Rect.unit (s := S400x128) ![0, 0] S200x128.size inb_S400x128_S200x128_0_0
abbrev outBottom : Rect S400x128 := Rect.unit (s := S400x128) ![200, 0] S200x128.size inb_S400x128_S200x128_200_0

/-! ## What the body leaves in the output block -/

/-- The output block after the body at point `i`, from what the input buffers read: the bottom half's store laid
    over the top half's (the later store first). -/
def stored (i : grid0.Coords) (a0 a1 : Vec F S200x10000 .f32) (x : Vec F S10000x128 .f32) (w : Vec F S128x128 .f32)
    (b : Vec F S1x128 .f32) : Vec F S400x128 .f32 :=
  View.canon
    [⟨outBottom, k0_pay3 (View.ld a1 adjBox) (View.ld x xBox) (View.ld w wBox) (View.ld b biasBox) (View.ld x (xRowsBottom i))⟩,
     ⟨outTop, k0_pay2 (View.ld a0 adjBox) (View.ld x xBox) (View.ld w wBox) (View.ld b biasBox) (View.ld x (xRowsTop i))⟩]

/-- The two halves tile the block, so every index of it lies in one of them. -/
theorem halves_cover (p0 p1 : Vec F S200x128 .f32) (y : S400x128.Idx) :
    ∃ pc ∈ ([⟨outBottom, p1⟩, ⟨outTop, p0⟩] : List (View.Piece (Elt F) S400x128 .f32)), y ∈ pc.1.set :=
  View.cover_of_tiled [⟨outBottom, p1⟩, ⟨outTop, p0⟩] S200x128.size (by rfl) y

/-! ## The body's triple -/

set_option maxHeartbeats 1000000 in
/-- The body on whole staging buffers, the inputs' reading `a0 a1 x w b` and the output's holding anything, runs to
    the continuation with the inputs' as they were and the output's reading `stored`. -/
theorem body_runs (c : Dev nD) (E : Set ℕ) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S400x128 .f32) (harg6 : arg6.IsWhole)
    (a0 a1 : Vec F S200x10000 .f32) (x : Vec F S10000x128 .f32) (w : Vec F S128x128 .f32) (b : Vec F S1x128 .f32)
    (K : PUnit → sProp 𝕄) :
    iprop(owns (c : Thread nD τ) arg1 fullShare a0 ∗ owns (c : Thread nD τ) arg2 fullShare a1
        ∗ owns (c : Thread nD τ) arg3 fullShare x ∗ owns (c : Thread nD τ) arg4 fullShare w
        ∗ owns (c : Thread nD τ) arg5 fullShare b ∗ (∃ d, owns (c : Thread nD τ) arg6 fullShare d)
        ∗ (iprop(owns (c : Thread nD τ) arg1 fullShare a0 ∗ owns (c : Thread nD τ) arg2 fullShare a1
            ∗ owns (c : Thread nD τ) arg3 fullShare x ∗ owns (c : Thread nD τ) arg4 fullShare w
            ∗ owns (c : Thread nD τ) arg5 fullShare b
            ∗ owns (c : Thread nD τ) arg6 fullShare (stored i a0 a1 x w b)) -∗ K ⟨⟩))
      ⊢ wp frame (wpE (defs₀ (F := F)) Variants.none c none) E
          (cc0__gcn_body i arg1 harg1 arg2 harg2 arg3 harg3 arg4 harg4 arg5 harg5 arg6 harg6) K := by
  simp only [cc0__gcn_body_eq_skeleton]; unfold cc0__gcn_body_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (halves_cover _ _)

end Cert.KernelIdeal.Region

end
-- ==== Proof.Ideal.Data.lean ====
/-
  The region's proof data and the body's obligation at every grid point. On entry each window's array holds what the
  region finds (`entry`). After the body at point `t` each input window's buffer holds its block, as before the body,
  and the output window's buffer holds `stored` of the five input blocks at `t`. Nothing is carried from point to
  point but the kernel's scratch, of which there is none. The adjacency matrix is read through two windows; the
  pipeline holds its buffer once, so each of the two windows is given one half of the buffer's share, which is enough
  to read; the other arrays are held whole.
-/
import proofs.«102684_g13692355740361_cont_week2b_1267_22_alg».proof.Proof.Ideal.Blocks
import proofs.«102684_g13692355740361_cont_week2b_1267_22_alg».proof.Proof.Ideal.Body

-- membership in a rectangle of these extents is decided by a structural look that recurses once per coordinate
set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The proof data of the region on core `c`. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => stored (grid0.coords t) (blockAt m c 0 t) (blockAt m c 1 t) (blockAt m c 2 t) (blockAt m c 3 t) (blockAt m c 4 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

/-- The proof data's arrays are the region-entry contents. -/
theorem entry_is_A (c : Dev nD) (w : Fin cfg0.W) : (dats m 0 c).A w = entry m c (Pipeline.arrRef spec0 w) := by
  dsimp only [dats]

/-! ## What the body leaves, window by window -/

theorem left_0 (c : Dev nD) (t : Fin cfg0.N) : (dats m 0 c).after 0 t = blockAt m c 0 t := by dsimp only [dats]
theorem left_1 (c : Dev nD) (t : Fin cfg0.N) : (dats m 0 c).after 1 t = blockAt m c 1 t := by dsimp only [dats]
theorem left_2 (c : Dev nD) (t : Fin cfg0.N) : (dats m 0 c).after 2 t = blockAt m c 2 t := by dsimp only [dats]
theorem left_3 (c : Dev nD) (t : Fin cfg0.N) : (dats m 0 c).after 3 t = blockAt m c 3 t := by dsimp only [dats]
theorem left_4 (c : Dev nD) (t : Fin cfg0.N) : (dats m 0 c).after 4 t = blockAt m c 4 t := by dsimp only [dats]
theorem left_5 (c : Dev nD) (t : Fin cfg0.N) :
    (dats m 0 c).after 5 t
      = stored (grid0.coords t) (blockAt m c 0 t) (blockAt m c 1 t) (blockAt m c 2 t) (blockAt m c 3 t) (blockAt m c 4 t) := by
  dsimp only [dats]

/-! ## What the body finds in each input window's buffer -/

theorem found_0 (c : Dev nD) (t : Fin cfg0.N) (d) : (dats m 0 c).before 0 t d = blockAt m c 0 t :=
  holds_block_0 m (dats m 0 c) (entry_is_A m c 0) (left_0 m c) t d
theorem found_1 (c : Dev nD) (t : Fin cfg0.N) (d) : (dats m 0 c).before 1 t d = blockAt m c 1 t :=
  holds_block_1 m (dats m 0 c) (entry_is_A m c 1) (left_1 m c) t d
theorem found_2 (c : Dev nD) (t : Fin cfg0.N) (d) : (dats m 0 c).before 2 t d = blockAt m c 2 t :=
  holds_block_2 m (dats m 0 c) (entry_is_A m c 2) (left_2 m c) t d
theorem found_3 (c : Dev nD) (t : Fin cfg0.N) (d) : (dats m 0 c).before 3 t d = blockAt m c 3 t :=
  holds_block_3 m (dats m 0 c) (entry_is_A m c 3) (left_3 m c) t d
theorem found_4 (c : Dev nD) (t : Fin cfg0.N) (d) : (dats m 0 c).before 4 t d = blockAt m c 4 t :=
  holds_block_4 m (dats m 0 c) (entry_is_A m c 4) (left_4 m c) t d

/-! ## The obligation at a generic point -/

/-- What the body is called with at point `t`, the windows one by one; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and what
    the core owes pass through unread. -/
theorem body_at_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_0, found_1, found_2, found_3, found_4]
  rw [show (dats m 0 c).Φ t.succ = (dats m 0 c).Φ t.castSucc from rfl,
    show (dats m 0 c).owesAt () t.succ = (dats m 0 c).owesAt () t.castSucc from rfl,
    left_0, left_1, left_2, left_3, left_4, left_5]
  iintro ⟨HΦ, Ho, ⟨%d0, H0⟩, ⟨%d1, H1⟩, ⟨%d2, H2⟩, ⟨%d3, H3⟩, ⟨%d4, H4⟩, ⟨%d5, H5⟩⟩
  iapply (body_runs c Set.univ (grid0.coords t) _ _ _ _ _ _ _ _ _ _ _ _
    (blockAt m c 0 t) (blockAt m c 1 t) (blockAt m c 2 t) (blockAt m c 3 t) (blockAt m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation (c : Dev nD) :
    BodyObligation (dats (F := F) m 0 c) (defs₀ (F := F)) Variants.none () Set.univ := fun t => by
  rw [bigSep_W0, bigSep_W0]
  exact body_at_point m c t

end Cert.KernelIdeal.Region

end
-- ==== Proof.Ideal.Run.lean ====
/-
  The launch. The pipeline asks, at the region's entry, for every window's array at the share the proof data names;
  the launch hands over every DISTINCT buffer behind the windows, whole, at the full share. Five of the six windows
  have a buffer of their own. The two adjacency windows read one buffer, adj: its full share is divided into its left
  and right halves, one for each window — either half is a positive share of every element, which is all a window
  that is only fetched from needs, and the two halves are given back together when the region ends, both still at the
  entry contents. With that division the launch theorem for windows that may share arrays applies; its post says that
  each window's array ends at what the write-backs leave (for an input: its entry contents) and that every buffer no
  window stages ends as the region found it. The four arguments are inputs or unstaged: they end as launched.
-/
import proofs.«102684_g13692355740361_cont_week2b_1267_22_alg».proof.Proof.Ideal.Data

-- membership in a rectangle of these extents is decided by a structural look that recurses once per coordinate
set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The shares at entry -/

/-- A window's array at its share and at its entry contents, as a plain points-to of the buffer behind it: the
    array is the whole buffer. -/
theorem window_array (c : Dev nD) (w : Fin cfg0.W) :
    ((cfg0.win w).arr.view.loc (c.tc : Thread nD τ) ↦[(cfg0.win w).arr.view.set]{(dats m 0 c).share w} (dats m 0 c).arrAt w 0 : sProp 𝕄)
      = ((c.tc : Thread nD τ).loc (Pipeline.arrRef spec0 w) ↦{(dats m 0 c).share w} entry m c (Pipeline.arrRef spec0 w)) := by
  rw [(arr_whole0 w).set_eq_univ]; rfl

/-- The distinct buffers behind the windows, each whole at the full share at the entry contents, yield each window's
    array at its share: adj's full share as its two halves. -/
theorem arrays_at_entry (c : Dev nD) :
    (Pipeline.arrBufs (Ix := Unit) (Name := ℕ) (U := UR sig nD τ) (Lvl := ℕ) spec0 c (entry m c) : sProp 𝕄)
      ⊢ (dats m 0 c).arrays ((dats m 0 c).arrAt · 0) := by
  unfold Pipeline.arrBufs Dat.arrays
  rw [bigSep_congr (fun w _ => window_array m c w),
    bigSep_eq_bigSepL_of_eq [main_arg1, main_arg0, main_arg2, main_call0_v0, main_v0] (by decide) (by decide), bigSep_W0]
  show iprop((((c.tc : Thread nD τ).loc main_arg1) ↦{fullShare} entry m c main_arg1)
    ∗ (((c.tc : Thread nD τ).loc main_arg0) ↦{fullShare} entry m c main_arg0)
    ∗ (((c.tc : Thread nD τ).loc main_arg2) ↦{fullShare} entry m c main_arg2)
    ∗ (((c.tc : Thread nD τ).loc main_call0_v0) ↦{fullShare} entry m c main_call0_v0)
    ∗ (((c.tc : Thread nD τ).loc main_v0) ↦{fullShare} entry m c main_v0))
    ⊢ iprop((((c.tc : Thread nD τ).loc main_arg1) ↦{fullShare.left} entry m c main_arg1)
    ∗ (((c.tc : Thread nD τ).loc main_arg1) ↦{fullShare.right} entry m c main_arg1)
    ∗ (((c.tc : Thread nD τ).loc main_arg0) ↦{fullShare} entry m c main_arg0)
    ∗ (((c.tc : Thread nD τ).loc main_arg2) ↦{fullShare} entry m c main_arg2)
    ∗ (((c.tc : Thread nD τ).loc main_call0_v0) ↦{fullShare} entry m c main_call0_v0)
    ∗ (((c.tc : Thread nD τ).loc main_v0) ↦{fullShare} entry m c main_v0))
  have halves : ((((c.tc : Thread nD τ).loc main_arg1) ↦{fullShare} entry m c main_arg1 : sProp 𝕄))
      ⊢ iprop((((c.tc : Thread nD τ).loc main_arg1) ↦{fullShare.left} entry m c main_arg1)
        ∗ (((c.tc : Thread nD τ).loc main_arg1) ↦{fullShare.right} entry m c main_arg1)) :=
    (pointsTo_share (PosShare.mem_left_op_right fullShare)).1
  iintro ⟨Hadj, Hx, Hw, Hb, Ho⟩
  ihave H := halves $$ Hadj
  icases H with ⟨Hl, Hr⟩
  isplitl [Hl]; · iexact Hl
  isplitl [Hr]; · iexact Hr
  isplitl [Hx]; · iexact Hx
  isplitl [Hw]; · iexact Hw
  isplitl [Hb]; · iexact Hb
  iexact Ho

/-! ## The run -/

/-- Between any two points the region keeps nothing but the kernel's scratch. -/
theorem invariant_is (c : Dev nD) (t : Fin (cfg0.N + 1)) :
    (dats m 0 c).Φ t
      = Pipeline.scopedRest (Ix := Unit) (Name := ℕ) (U := UR sig nD τ) (Lvl := ℕ) (Val := Elt F) spec0 c := by
  dsimp only [dats]

-- the launch theorem's implicit arguments are found by unifying its conclusion with this one, which takes unfolding
-- plain definitions in a metavariable's type
set_option backward.isDefEq.respectTransparency.types false in
/-- From any memory with zero counters, every weakly fair execution of @main terminates, and in every final state each
    window's array holds what the write-backs leave of the proof data and every buffer no window stages holds what the
    region found. -/
theorem run_region :
    θ_run defs (onTc (τ := τ) (main (F := F))) (s₀ m ρ) (Pipeline.FramePost cfgs (dats m) 0 (entry m)) := by
  classical
  exact Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := entry m) (hmain := main_to_region m Variants.none)
    (hsplit := arrays_at_entry m)
    (X := fun _ => iprop(emp)) (Y := fun _ => iprop(emp))
    (Z := fun c => Pipeline.unscopedRest (Ix := Unit) (Name := ℕ) (U := UR sig nD τ) (Lvl := ℕ) spec0 c (entry m c))
    (hX := fun c => by
      iintro H; isplitr; · iempintro
      iexact H)
    (hin := fun c => by rw [invariant_is]; iintro ⟨-, H⟩; iexact H)
    (hout := fun c => by
      rw [invariant_is]
      iintro H; isplitr; · iempintro
      iexact H)
    (QY := fun c s => ∀ b ∈ Pipeline.restRefs sig spec0, s.mem ((c.tc : Thread nD τ).loc b) = entry m c b)
    (hY := fun c s' => by
      iintro ⟨-, HU, HSI⟩
      unfold Pipeline.unscopedRest
      imodintro
      iapply (pointsTo_read_all (Pipeline.restRefs sig spec0) (fun b => (c.tc : Thread nD τ).loc b) (entry m c) s')
      isplitl [HU] <;> iassumption)
    (hQ := fun s h c => ⟨(h c).1, (h c).2⟩)

/-! ## The frame -/

/-- @main runs to the end without a fault and its four arguments end as launched: x, adj and W are arrays of input
    windows, never written back; the bias vector is staged by no window and bypasses the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 2).trans (((dats m 0 c).arrAt_in 2 rfl _).trans ((entry_is_A m c 2).trans (entry_arg0 m c))),
     ((h c).1 0).trans (((dats m 0 c).arrAt_in 0 rfl _).trans ((entry_is_A m c 0).trans (entry_arg1 m c))),
     ((h c).1 3).trans (((dats m 0 c).arrAt_in 3 rfl _).trans ((entry_is_A m c 3).trans (entry_arg2 m c))),
     ((h c).2 main_arg3 (Pipeline.mem_restRefs_of main_arg3 rfl (by decide))).trans (entry_arg3 m c)⟩) (run_region m ρ)

end Cert.KernelIdeal.Region

end
-- ==== Proof.LibPlainDot.lean ====
/-
  A plain matrix product read at an entry, for any extents.

  The dimension numbers of a product of an `n` × `K` matrix with a `K` × `M` matrix that contracts the first matrix's
  columns against the second's rows index their sum by the contraction shape's positions. When that shape has the one
  axis of extent `K` and the two operand indices at output entry (p, c) and contraction position `k` are (p, k) and
  (k, c) — four coordinate facts a program's literal dimension numbers decide — the sum is the textbook one,
  `∑ k : Fin K, l (p, k) · r (k, c)`. On the extended reals this reads a vector unit's matrix product into a zero
  accumulator and the host's `dot_general` alike.
-/
import Idealize.ShloMosaic.Lib.ValueIdx
import Idealize.ShloMosaic.PureOps.Ideal.Laws

noncomputable section

open scoped BigOperators

namespace Cert.PlainDot

open Idealize.ShloMosaic Idealize.ShloMosaic.ValueIdx

/-- The contraction's sum, re-indexed by the one contracted coordinate. -/
theorem sum_contr_eq {n K M : Nat} (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (l : (⟨2, ![n, K]⟩ : Shape).Idx → EReal) (r : (⟨2, ![K, M]⟩ : Shape).Idx → EReal) (p : Fin n) (c : Fin M) :
    ∑ q : D.contr.Idx, l (D.lhsIdx (ix2 p c) q) * r (D.rhsIdx (ix2 p c) q) = ∑ k : Fin K, l (ix2 p k) * r (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 k c := funext fun a => Fin.ext (by
    match a with
    | ⟨0, _⟩ => exact (r0 _ _).trans hk
    | ⟨1, _⟩ => exact r1 _ _)
  rw [el, er]

/-- A vector unit's matrix product into the zero accumulator, at entry (p, c): `∑ k, lhs (p, k) · rhs (k, c)`. -/
theorem matmul_zero_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (lhs : FVec Ideal (⟨2, ![n, K]⟩ : Shape) φ₁) (rhs : FVec Ideal (⟨2, ![K, M]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 k c) : EReal) :=
  (Ideal.matmul_constant_zero_apply D prec lhs rhs (ix2 p c)).trans (sum_contr_eq D hr hs l0 l1 r0 r1 lhs rhs p c)

/-- The host's `dot_general`, at entry (p, c): the same sum. -/
theorem dotGeneral_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (sched : HostSchedule)
    (lhs : FVec Ideal (⟨2, ![n, K]⟩ : Shape) φ₁) (rhs : FVec Ideal (⟨2, ![K, M]⟩ : Shape) φ₂) (p : Fin n) (c : Fin M) :
    FloatOps.dotGeneral D prec sched lhs rhs (ix2 p c) = ∑ k : Fin K, (lhs (ix2 p k) : EReal) * (rhs (ix2 k c) : EReal) :=
  (Ideal.dotGeneral_apply D prec sched lhs rhs (ix2 p c)).trans (sum_contr_eq D hr hs l0 l1 r0 r1 lhs rhs p c)

end Cert.PlainDot

end
-- ==== Proof.LibLayerOrders.lean ====
/-
  One entry of a residual graph-convolution layer, in the two orders of multiplication the two programs use, and the
  law that joins them.

  For one output entry, let `a k` be the entry's row of the adjacency matrix, `x k j` the node features, `w j` the
  entry's column of the weights, `res` the entry of x added back and `β` the entry's bias. The kernel aggregates
  first, max (Σ_j (Σ_k a_k x_kj) w_j + res + β, 0); the reference projects first, max (Σ_k a_k (Σ_j x_kj w_j) + β + res, 0).
  The two double sums are one sum over (k, j) of a_k x_kj w_j once the product distributes over the inner sum,
  which on the extended reals holds for real entries (at an infinite entry a product with a sum of mixed signs need
  not distribute); the three addends are reordered by commutativity and associativity of addition alone.
-/
import Idealize.ShloMosaic.PureOps.Ideal.Laws
import Mathlib.Data.EReal.Basic
import Mathlib.Algebra.BigOperators.Ring.Finset

noncomputable section

open scoped BigOperators

namespace Cert.GraphLayer

variable {K J : Type} [Fintype K] [Fintype J]

/-- Aggregate over the neighbours first, then project: the kernel's order. -/
def aggregateFirst (a : K → EReal) (x : K → J → EReal) (w : J → EReal) (res β : EReal) : EReal :=
  max (((∑ j, (∑ k, a k * x k j) * w j) + res) + β) 0

/-- Project the features first, then aggregate: the reference's order. -/
def projectFirst (a : K → EReal) (x : K → J → EReal) (w : J → EReal) (res β : EReal) : EReal :=
  max (((∑ k, a k * (∑ j, x k j * w j)) + β) + res) 0

/-- The embedding of the reals commutes with a finite sum. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- Over the reals the two double sums are one: Σ_j (Σ_k a_k x_kj) w_j = Σ_k a_k (Σ_j x_kj w_j). -/
theorem sums_real (a : K → ℝ) (x : K → J → ℝ) (w : J → ℝ) :
    ∑ j, (∑ k, a k * x k j) * w j = ∑ k, a k * ∑ j, x k j * w j := by
  simp only [Finset.sum_mul, Finset.mul_sum]
  rw [Finset.sum_comm]
  exact Finset.sum_congr rfl fun k _ => Finset.sum_congr rfl fun j _ => by ring

/-- THE LAW: for real adjacency, feature and weight entries the two orders give one entry, whatever the residual and
    the bias entries are. -/
theorem aggregateFirst_eq_projectFirst (a : K → EReal) (x : K → J → EReal) (w : J → EReal) (res β : EReal)
    (ha : ∀ k, ∃ r : ℝ, a k = r) (hx : ∀ k j, ∃ r : ℝ, x k j = r) (hw : ∀ j, ∃ r : ℝ, w j = r) :
    aggregateFirst a x w res β = projectFirst a x w res β := by
  choose a' ha' using ha
  choose x' hx' using hx
  choose w' hw' using hw
  have hS : (∑ j, (∑ k, a k * x k j) * w j) = ∑ k, a k * (∑ j, x k j * w j) := by
    simp only [ha', hx', hw', ← EReal.coe_mul, ← coe_sum]
    exact congrArg _ (sums_real a' x' w')
  unfold aggregateFirst projectFirst
  rw [hS, add_right_comm]

end Cert.GraphLayer

end
-- ==== Proof.Ideal.Entries.lean ====
/-
  The kernel's two stored values, read at an entry. Each half of the output block is
  max ((a · x) · W + x_rows + bias, 0) of a 200-row block `a` of the adjacency matrix: the first product sums over the
  10000 nodes, the second over the 128 features, both into a zero accumulator; the bias row [1, 128] is spread over the
  200 rows. At entry (p, q) that is the layer's entry in the aggregate-first order, of row p of `a`, all of x,
  column q of W, the residual entry x_rows (p, q) and the bias entry (0, q).
-/
import proofs.«102684_g13692355740361_cont_week2b_1267_22_alg».proof.Proof.Gen.KernelIdeal.Skeleton
import proofs.«102684_g13692355740361_cont_week2b_1267_22_alg».proof.Proof.LibPlainDot
import proofs.«102684_g13692355740361_cont_week2b_1267_22_alg».proof.Proof.LibLayerOrders
import Idealize.ShloMosaic.Lib.Pipeline.Value
import Idealize.ShloMosaic.Lib.ValueIdx
import Idealize.ShloMosaic.PureOps.Ideal.Laws

noncomputable section

open scoped BigOperators

namespace Cert.KernelIdeal.Entries

open Idealize.ShloMosaic Idealize.ShloMosaic.ValueIdx Cert.KernelIdeal Cert.KernelIdeal.Gen

/-! ## The two products' dimension numbers: rows of the left against columns of the right -/

theorem agg_l0 (i : S200x128.Idx) (q : dot_S200x10000_S10000x128_S200x128_1_0_0_1_n_n.contr.Idx) : (dot_S200x10000_S10000x128_S200x128_1_0_0_1_n_n.lhsIdx i q 0).val = (i 0).val := by
  unfold DotDims.lhsIdx
  rw [dif_neg (show ¬(0 : Fin S200x10000.rank) ∈ dot_S200x10000_S10000x128_S200x128_1_0_0_1_n_n.lhsBatch by decide),
    dif_pos (show (0 : Fin S200x10000.rank) ∈ dot_S200x10000_S10000x128_S200x128_1_0_0_1_n_n.lhsNonContracting by decide)]
  rfl
theorem agg_l1 (i : S200x128.Idx) (q : dot_S200x10000_S10000x128_S200x128_1_0_0_1_n_n.contr.Idx) : (dot_S200x10000_S10000x128_S200x128_1_0_0_1_n_n.lhsIdx i q 1).val = (q ⟨0, by decide⟩).val :=
  dot_S200x10000_S10000x128_S200x128_1_0_0_1_n_n.lhsIdx_val_of_single rfl i q
theorem agg_r0 (i : S200x128.Idx) (q : dot_S200x10000_S10000x128_S200x128_1_0_0_1_n_n.contr.Idx) : (dot_S200x10000_S10000x128_S200x128_1_0_0_1_n_n.rhsIdx i q 0).val = (q ⟨0, by decide⟩).val :=
  dot_S200x10000_S10000x128_S200x128_1_0_0_1_n_n.rhsIdx_val_of_single rfl i q
theorem agg_r1 (i : S200x128.Idx) (q : dot_S200x10000_S10000x128_S200x128_1_0_0_1_n_n.contr.Idx) : (dot_S200x10000_S10000x128_S200x128_1_0_0_1_n_n.rhsIdx i q 1).val = (i 1).val := by
  unfold DotDims.rhsIdx
  rw [dif_neg (show ¬(1 : Fin S10000x128.rank) ∈ dot_S200x10000_S10000x128_S200x128_1_0_0_1_n_n.rhsBatch by decide),
    dif_pos (show (1 : Fin S10000x128.rank) ∈ dot_S200x10000_S10000x128_S200x128_1_0_0_1_n_n.rhsNonContracting by decide)]
  rfl

theorem proj_l0 (i : S200x128.Idx) (q : dot_S200x128_S128x128_S200x128_1_0_0_1_n_n.contr.Idx) : (dot_S200x128_S128x128_S200x128_1_0_0_1_n_n.lhsIdx i q 0).val = (i 0).val := by
  unfold DotDims.lhsIdx
  rw [dif_neg (show ¬(0 : Fin S200x128.rank) ∈ dot_S200x128_S128x128_S200x128_1_0_0_1_n_n.lhsBatch by decide),
    dif_pos (show (0 : Fin S200x128.rank) ∈ dot_S200x128_S128x128_S200x128_1_0_0_1_n_n.lhsNonContracting by decide)]
  rfl
theorem proj_l1 (i : S200x128.Idx) (q : dot_S200x128_S128x128_S200x128_1_0_0_1_n_n.contr.Idx) : (dot_S200x128_S128x128_S200x128_1_0_0_1_n_n.lhsIdx i q 1).val = (q ⟨0, by decide⟩).val :=
  dot_S200x128_S128x128_S200x128_1_0_0_1_n_n.lhsIdx_val_of_single rfl i q
theorem proj_r0 (i : S200x128.Idx) (q : dot_S200x128_S128x128_S200x128_1_0_0_1_n_n.contr.Idx) : (dot_S200x128_S128x128_S200x128_1_0_0_1_n_n.rhsIdx i q 0).val = (q ⟨0, by decide⟩).val :=
  dot_S200x128_S128x128_S200x128_1_0_0_1_n_n.rhsIdx_val_of_single rfl i q
theorem proj_r1 (i : S200x128.Idx) (q : dot_S200x128_S128x128_S200x128_1_0_0_1_n_n.contr.Idx) : (dot_S200x128_S128x128_S200x128_1_0_0_1_n_n.rhsIdx i q 1).val = (i 1).val := by
  unfold DotDims.rhsIdx
  rw [dif_neg (show ¬(1 : Fin S128x128.rank) ∈ dot_S200x128_S128x128_S200x128_1_0_0_1_n_n.rhsBatch by decide),
    dif_pos (show (1 : Fin S128x128.rank) ∈ dot_S200x128_S128x128_S200x128_1_0_0_1_n_n.rhsNonContracting by decide)]
  rfl

/-- The aggregation (a · x) at (p, j): the sum over the nodes k of a (p, k) · x (k, j). -/
theorem aggregated (a : FVec Ideal S200x10000 .f32) (x : FVec Ideal S10000x128 .f32) (p : Fin 200) (j : Fin 128) :
    FloatOps.matmul dot_S200x10000_S10000x128_S200x128_1_0_0_1_n_n none a x (constant S200x128 .f32 0x00000000#32) (ix2 p j)
      = ∑ k : Fin 10000, a (ix2 p k) * x (ix2 k j) :=
  Cert.PlainDot.matmul_zero_apply dot_S200x10000_S10000x128_S200x128_1_0_0_1_n_n rfl rfl agg_l0 agg_l1 agg_r0 agg_r1 none a x p j

/-- The projection (h · W) at (p, q): the sum over the features j of h (p, j) · W (j, q). -/
theorem projected (h : FVec Ideal S200x128 .f32) (w : FVec Ideal S128x128 .f32) (p : Fin 200) (q : Fin 128) :
    FloatOps.matmul dot_S200x128_S128x128_S200x128_1_0_0_1_n_n none h w (constant S200x128 .f32 0x00000000#32) (ix2 p q)
      = ∑ j : Fin 128, h (ix2 p j) * w (ix2 j q) :=
  Cert.PlainDot.matmul_zero_apply dot_S200x128_S128x128_S200x128_1_0_0_1_n_n rfl rfl proj_l0 proj_l1 proj_r0 proj_r1 none h w p q

/-- The bias row spread over the 200 rows, at (p, q): the row's entry (0, q). -/
theorem bias_spread (b : Vec Ideal S1x128 .f32) (p : Fin 200) (q : Fin 128) :
    broadcastTo S200x128 (shapeCast S1x128 b shapeCasts_S1x128_S1x128) broadcasts_S1x128_S200x128 (ix2 p q)
      = b (ix2 (0 : Fin 1) q) := by
  rw [shapeCast_self]
  exact broadcastTo_apply b broadcasts_S1x128_S200x128 (ix2 p q) (ix2 (0 : Fin 1) q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])

/-! ## The two halves -/

/-- The top half's stored value at (p, q). -/
theorem top_half_entry (a : Vec Ideal S200x10000 .f32) (x : Vec Ideal S10000x128 .f32) (w : Vec Ideal S128x128 .f32)
    (b : Vec Ideal S1x128 .f32) (xr : Vec Ideal S200x128 .f32) (p : Fin 200) (q : Fin 128) :
    k0_pay2 (F := Ideal) a x w b xr (ix2 p q)
      = Cert.GraphLayer.aggregateFirst (fun k : Fin 10000 => a (ix2 p k)) (fun (k : Fin 10000) (j : Fin 128) => x (ix2 k j))
          (fun j : Fin 128 => w (ix2 j q)) (xr (ix2 p q)) (b (ix2 (0 : Fin 1) q)) := by
  unfold k0_pay2 k0_pay1 Cert.GraphLayer.aggregateFirst
  show max (((FloatOps.matmul (F := Ideal) dot_S200x128_S128x128_S200x128_1_0_0_1_n_n none
        (FloatOps.matmul (F := Ideal) dot_S200x10000_S10000x128_S200x128_1_0_0_1_n_n none a x (constant (F := Ideal) S200x128 .f32 0x00000000#32)) w
        (constant (F := Ideal) S200x128 .f32 0x00000000#32) (ix2 p q) : EReal) + xr (ix2 p q))
      + broadcastTo S200x128 (shapeCast S1x128 b shapeCasts_S1x128_S1x128) broadcasts_S1x128_S200x128 (ix2 p q))
      (Ideal.ofBits .f32 0x00000000#32) = _
  rw [projected, bias_spread, Ideal.ofBits_zero_f32]
  simp only [aggregated]

/-- The bottom half's stored value at (p, q). -/
theorem bottom_half_entry (a : Vec Ideal S200x10000 .f32) (x : Vec Ideal S10000x128 .f32) (w : Vec Ideal S128x128 .f32)
    (b : Vec Ideal S1x128 .f32) (xr : Vec Ideal S200x128 .f32) (p : Fin 200) (q : Fin 128) :
    k0_pay3 (F := Ideal) a x w b xr (ix2 p q)
      = Cert.GraphLayer.aggregateFirst (fun k : Fin 10000 => a (ix2 p k)) (fun (k : Fin 10000) (j : Fin 128) => x (ix2 k j))
          (fun j : Fin 128 => w (ix2 j q)) (xr (ix2 p q)) (b (ix2 (0 : Fin 1) q)) := by
  unfold k0_pay3 k0_pay1 Cert.GraphLayer.aggregateFirst
  show max (((FloatOps.matmul (F := Ideal) dot_S200x128_S128x128_S200x128_1_0_0_1_n_n none
        (FloatOps.matmul (F := Ideal) dot_S200x10000_S10000x128_S200x128_1_0_0_1_n_n none a x (constant (F := Ideal) S200x128 .f32 0x00000000#32)) w
        (constant (F := Ideal) S200x128 .f32 0x00000000#32) (ix2 p q) : EReal) + xr (ix2 p q))
      + broadcastTo S200x128 (shapeCast S1x128 b shapeCasts_S1x128_S1x128) broadcasts_S1x128_S200x128 (ix2 p q))
      (Ideal.ofBits .f32 0x00000000#32) = _
  rw [projected, bias_spread, Ideal.ofBits_zero_f32]
  simp only [aggregated]

end Cert.KernelIdeal.Entries

end
-- ==== Proof.Ideal.Array.lean ====
/-
  From blocks to the whole array, at the ideal instance. Grid point `t` writes back one 400 × 128 block, rows
  400 t .. 400 t + 399 of the output. Its top half is computed from rows 400 t .. 400 t + 199 of adj (the first window's
  block, block index 2 t of 200 rows) and the same rows of x added back; its bottom half from rows 400 t + 200 ..
  400 t + 399 of adj (the second window's block, index 2 t + 1) and those rows of x. So entry (p, q) of either half is the
  layer's entry, in the aggregate-first order, at the row of the output array it lands on: every written-back block is
  the block of ONE function of the arrays the region finds (`layerOut`). The 25 blocks tile the 10000 rows, so the
  array ends holding that function.
-/
import proofs.«102684_g13692355740361_cont_week2b_1267_22_alg».proof.Proof.Ideal.Run
import proofs.«102684_g13692355740361_cont_week2b_1267_22_alg».proof.Proof.Ideal.Entries

-- membership in a rectangle of these extents is decided by a structural look that recurses once per coordinate
set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open Idealize.ShloMosaic.ValueIdx
open scoped BigOperators

variable (m : (ℓ : Loc nD τ sig) → Buf (Elt Ideal) ℓ) (ρ : Dev nD → PrngReg)

/-! ## The layer's result from the arrays the region finds -/

/-- Entry (r, q): row r of adj against all of x, then column q of W; x (r, q) added back; the bias row's entry (0, q). -/
def layerAt (c : Dev nD) (r : Fin 10000) (q : Fin 128) : EReal :=
  Cert.GraphLayer.aggregateFirst (fun k : Fin 10000 => entry m c main_arg1 (ix2 r k))
    (fun (k : Fin 10000) (j : Fin 128) => entry m c main_arg0 (ix2 k j)) (fun j : Fin 128 => entry m c main_arg2 (ix2 j q))
    (entry m c main_arg0 (ix2 r q)) (entry m c main_call0_v0 (ix2 (0 : Fin 1) q))

/-- The whole result array. -/
def layerOut (c : Dev nD) : S10000x128.Idx → EReal := fun i => layerAt m c (i 0) (i 1)

/-! ## The index maps, and what each block reads -/

/-- The printed index maps, decided over the 25 grid points: the adjacency windows at block rows 2 t and 2 t + 1, the
    resident operands at block 0, the output at block row t. -/
theorem index_maps : ∀ t : Fin cfg0.N,
    win0_0.index t (0 : Fin 2) = 2 * t.val ∧ win0_0.index t (1 : Fin 2) = 0
    ∧ win0_1.index t (0 : Fin 2) = 2 * t.val + 1 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ (grid0.coords t (0 : Fin 1)).val = t.val :=
  (by decide +kernel : ∀ t : Fin grid0.N, _)

/-- The resident features window reads all of x at every point. -/
theorem x_read (c : Dev nD) (t : Fin cfg0.N) (k : Fin 10000) (j : Fin 128) :
    View.ld (blockAt m c 2 t) xBox (ix2 k j) = entry m c main_arg0 (ix2 k j) := by
  obtain ⟨e00, e01, e10, e11, e20, e21, e30, e31, e40, e41, e50, e51, eg⟩ := index_maps t
  show entry m c main_arg0 (((cfg0.win 2).blk t).view.emb (xBox.idx (ix2 k j))) = _
  refine congrArg _ (funext fun a => Fin.ext ?_)
  match a with
  | ⟨0, _⟩ => show win0_2.index t (0 : Fin 2) * 10000 + 1 * (0 + 1 * k.val) = k.val; omega
  | ⟨1, _⟩ => show win0_2.index t (1 : Fin 2) * 128 + 1 * (0 + 1 * j.val) = j.val; omega

/-- The resident weights window reads all of W. -/
theorem w_read (c : Dev nD) (t : Fin cfg0.N) (j : Fin 128) (q : Fin 128) :
    View.ld (blockAt m c 3 t) wBox (ix2 j q) = entry m c main_arg2 (ix2 j q) := by
  obtain ⟨e00, e01, e10, e11, e20, e21, e30, e31, e40, e41, e50, e51, eg⟩ := index_maps t
  show entry m c main_arg2 (((cfg0.win 3).blk t).view.emb (wBox.idx (ix2 j q))) = _
  refine congrArg _ (funext fun a => Fin.ext ?_)
  match a with
  | ⟨0, _⟩ => show win0_3.index t (0 : Fin 2) * 128 + 1 * (0 + 1 * j.val) = j.val; omega
  | ⟨1, _⟩ => show win0_3.index t (1 : Fin 2) * 128 + 1 * (0 + 1 * q.val) = q.val; omega

/-- The resident bias window reads the whole bias row. -/
theorem bias_read (c : Dev nD) (t : Fin cfg0.N) (q : Fin 128) :
    View.ld (blockAt m c 4 t) biasBox (ix2 (0 : Fin 1) q) = entry m c main_call0_v0 (ix2 (0 : Fin 1) q) := by
  obtain ⟨e00, e01, e10, e11, e20, e21, e30, e31, e40, e41, e50, e51, eg⟩ := index_maps t
  show entry m c main_call0_v0 (((cfg0.win 4).blk t).view.emb (biasBox.idx (ix2 (0 : Fin 1) q))) = _
  refine congrArg _ (funext fun a => Fin.ext ?_)
  match a with
  | ⟨0, _⟩ => show win0_4.index t (0 : Fin 2) * 1 + 1 * (0 + 1 * 0) = 0; omega
  | ⟨1, _⟩ => show win0_4.index t (1 : Fin 2) * 128 + 1 * (0 + 1 * q.val) = q.val; omega

/-- The first adjacency window's block at `t` is rows 400 t .. of adj. -/
theorem adj_top_read (c : Dev nD) (t : Fin cfg0.N) (p : Fin 200) (h : 400 * t.val + p.val < 10000) (k : Fin 10000) :
    View.ld (blockAt m c 0 t) adjBox (ix2 p k) = entry m c main_arg1 (ix2 (⟨400 * t.val + p.val, h⟩ : Fin 10000) k) := by
  obtain ⟨e00, e01, e10, e11, e20, e21, e30, e31, e40, e41, e50, e51, eg⟩ := index_maps t
  show entry m c main_arg1 (((cfg0.win 0).blk t).view.emb (adjBox.idx (ix2 p k))) = _
  refine congrArg _ (funext fun a => Fin.ext ?_)
  match a with
  | ⟨0, _⟩ => show win0_0.index t (0 : Fin 2) * 200 + 1 * (0 + 1 * p.val) = 400 * t.val + p.val; omega
  | ⟨1, _⟩ => show win0_0.index t (1 : Fin 2) * 10000 + 1 * (0 + 1 * k.val) = k.val; omega

/-- The residual rows of the top half are the same rows of x. -/
theorem x_top_read (c : Dev nD) (t : Fin cfg0.N) (p : Fin 200) (h : 400 * t.val + p.val < 10000) (q : Fin 128) :
    View.ld (blockAt m c 2 t) (xRowsTop (grid0.coords t)) (ix2 p q)
      = entry m c main_arg0 (ix2 (⟨400 * t.val + p.val, h⟩ : Fin 10000) q) := by
  obtain ⟨e00, e01, e10, e11, e20, e21, e30, e31, e40, e41, e50, e51, eg⟩ := index_maps t
  have ho : k0_off1 (grid0.coords t) = ![400 * (grid0.coords t 0).val, 0] := k0_off1_eq _
  show entry m c main_arg0 (((cfg0.win 2).blk t).view.emb ((xRowsTop (grid0.coords t)).idx (ix2 p q))) = _
  refine congrArg _ (funext fun a => Fin.ext ?_)
  match a with
  | ⟨0, _⟩ =>
    show win0_2.index t (0 : Fin 2) * 10000 + 1 * (k0_off1 (grid0.coords t) 0 + 1 * p.val) = 400 * t.val + p.val
    rw [ho]; show win0_2.index t (0 : Fin 2) * 10000 + 1 * (400 * (grid0.coords t 0).val + 1 * p.val) = _; omega
  | ⟨1, _⟩ =>
    show win0_2.index t (1 : Fin 2) * 128 + 1 * (k0_off1 (grid0.coords t) 1 + 1 * q.val) = q.val
    rw [ho]; show win0_2.index t (1 : Fin 2) * 128 + 1 * (0 + 1 * q.val) = _; omega

/-- Entry (p, q) of the top half of block `t` is entry (400 t + p, q) of the output array. -/
theorem out_top_index (t : Fin cfg0.N) (p : Fin 200) (h : 400 * t.val + p.val < 10000) (q : Fin 128) :
    ((cfg0.win 5).blk t).view.emb (outTop.emb (ix2 p q)) = ix2 (⟨400 * t.val + p.val, h⟩ : Fin 10000) q := by
  obtain ⟨e00, e01, e10, e11, e20, e21, e30, e31, e40, e41, e50, e51, eg⟩ := index_maps t
  refine funext fun a => Fin.ext ?_
  match a with
  | ⟨0, _⟩ => show win0_5.index t (0 : Fin 2) * 400 + 1 * (0 + 1 * p.val) = 400 * t.val + p.val; omega
  | ⟨1, _⟩ => show win0_5.index t (1 : Fin 2) * 128 + 1 * (0 + 1 * q.val) = q.val; omega

/-- The second adjacency window's block at `t` is rows 400 t + 200 .. of adj. -/
theorem adj_bottom_read (c : Dev nD) (t : Fin cfg0.N) (p : Fin 200) (h : 400 * t.val + 200 + p.val < 10000) (k : Fin 10000) :
    View.ld (blockAt m c 1 t) adjBox (ix2 p k) = entry m c main_arg1 (ix2 (⟨400 * t.val + 200 + p.val, h⟩ : Fin 10000) k) := by
  obtain ⟨e00, e01, e10, e11, e20, e21, e30, e31, e40, e41, e50, e51, eg⟩ := index_maps t
  show entry m c main_arg1 (((cfg0.win 1).blk t).view.emb (adjBox.idx (ix2 p k))) = _
  refine congrArg _ (funext fun a => Fin.ext ?_)
  match a with
  | ⟨0, _⟩ => show win0_1.index t (0 : Fin 2) * 200 + 1 * (0 + 1 * p.val) = 400 * t.val + 200 + p.val; omega
  | ⟨1, _⟩ => show win0_1.index t (1 : Fin 2) * 10000 + 1 * (0 + 1 * k.val) = k.val; omega

/-- The residual rows of the bottom half are the same rows of x. -/
theorem x_bottom_read (c : Dev nD) (t : Fin cfg0.N) (p : Fin 200) (h : 400 * t.val + 200 + p.val < 10000) (q : Fin 128) :
    View.ld (blockAt m c 2 t) (xRowsBottom (grid0.coords t)) (ix2 p q)
      = entry m c main_arg0 (ix2 (⟨400 * t.val + 200 + p.val, h⟩ : Fin 10000) q) := by
  obtain ⟨e00, e01, e10, e11, e20, e21, e30, e31, e40, e41, e50, e51, eg⟩ := index_maps t
  have ho : k0_off2 (grid0.coords t) = ![400 * (grid0.coords t 0).val + 200, 0] := k0_off2_eq _
  show entry m c main_arg0 (((cfg0.win 2).blk t).view.emb ((xRowsBottom (grid0.coords t)).idx (ix2 p q))) = _
  refine congrArg _ (funext fun a => Fin.ext ?_)
  match a with
  | ⟨0, _⟩ =>
    show win0_2.index t (0 : Fin 2) * 10000 + 1 * (k0_off2 (grid0.coords t) 0 + 1 * p.val) = 400 * t.val + 200 + p.val
    rw [ho]; show win0_2.index t (0 : Fin 2) * 10000 + 1 * (400 * (grid0.coords t 0).val + 200 + 1 * p.val) = _; omega
  | ⟨1, _⟩ =>
    show win0_2.index t (1 : Fin 2) * 128 + 1 * (k0_off2 (grid0.coords t) 1 + 1 * q.val) = q.val
    rw [ho]; show win0_2.index t (1 : Fin 2) * 128 + 1 * (0 + 1 * q.val) = _; omega

/-- Entry (p, q) of the bottom half of block `t` is entry (400 t + 200 + p, q) of the output array. -/
theorem out_bottom_index (t : Fin cfg0.N) (p : Fin 200) (h : 400 * t.val + 200 + p.val < 10000) (q : Fin 128) :
    ((cfg0.win 5).blk t).view.emb (outBottom.emb (ix2 p q)) = ix2 (⟨400 * t.val + 200 + p.val, h⟩ : Fin 10000) q := by
  obtain ⟨e00, e01, e10, e11, e20, e21, e30, e31, e40, e41, e50, e51, eg⟩ := index_maps t
  refine funext fun a => Fin.ext ?_
  match a with
  | ⟨0, _⟩ => show win0_5.index t (0 : Fin 2) * 400 + 1 * (200 + 1 * p.val) = 400 * t.val + 200 + p.val; omega
  | ⟨1, _⟩ => show win0_5.index t (1 : Fin 2) * 128 + 1 * (0 + 1 * q.val) = q.val; omega

/-! ## Each half is its part of the result array -/

/-- The top half's stored value is that half of block `t` of the layer's result array. -/
theorem top_half_is (c : Dev nD) (t : Fin cfg0.N) (z : S200x128.Idx) :
    k0_pay2 (F := Ideal) (View.ld (blockAt m c 0 t) adjBox) (View.ld (blockAt m c 2 t) xBox) (View.ld (blockAt m c 3 t) wBox)
        (View.ld (blockAt m c 4 t) biasBox) (View.ld (blockAt m c 2 t) (xRowsTop (grid0.coords t))) z
      = layerOut m c (((cfg0.win 5).blk t).view.emb (outTop.emb z)) := by
  obtain ⟨p, q, rfl⟩ : ∃ (p : Fin 200) (q : Fin 128), z = ix2 p q := ⟨z 0, z 1, eq_ix2 z⟩
  have hN : cfg0.N = 25 := N_0
  have h : 400 * t.val + p.val < 10000 := by have := p.isLt; have := t.isLt; omega
  rw [out_top_index t p h q]
  refine (Cert.KernelIdeal.Entries.top_half_entry _ _ _ _ _ p q).trans ?_
  have e1 : (fun k : Fin 10000 => View.ld (blockAt m c 0 t) adjBox (ix2 p k))
      = fun k : Fin 10000 => entry m c main_arg1 (ix2 (⟨400 * t.val + p.val, h⟩ : Fin 10000) k) := funext fun k => adj_top_read m c t p h k
  have e2 : (fun (k : Fin 10000) (j : Fin 128) => View.ld (blockAt m c 2 t) xBox (ix2 k j))
      = fun (k : Fin 10000) (j : Fin 128) => entry m c main_arg0 (ix2 k j) := funext fun k => funext fun j => x_read m c t k j
  have e3 : (fun j : Fin 128 => View.ld (blockAt m c 3 t) wBox (ix2 j q))
      = fun j : Fin 128 => entry m c main_arg2 (ix2 j q) := funext fun j => w_read m c t j q
  rw [e1, e2, e3, x_top_read m c t p h q, bias_read m c t q]
  rfl

/-- The bottom half's stored value is that half of block `t` of the layer's result array. -/
theorem bottom_half_is (c : Dev nD) (t : Fin cfg0.N) (z : S200x128.Idx) :
    k0_pay3 (F := Ideal) (View.ld (blockAt m c 1 t) adjBox) (View.ld (blockAt m c 2 t) xBox) (View.ld (blockAt m c 3 t) wBox)
        (View.ld (blockAt m c 4 t) biasBox) (View.ld (blockAt m c 2 t) (xRowsBottom (grid0.coords t))) z
      = layerOut m c (((cfg0.win 5).blk t).view.emb (outBottom.emb z)) := by
  obtain ⟨p, q, rfl⟩ : ∃ (p : Fin 200) (q : Fin 128), z = ix2 p q := ⟨z 0, z 1, eq_ix2 z⟩
  have hN : cfg0.N = 25 := N_0
  have h : 400 * t.val + 200 + p.val < 10000 := by have := p.isLt; have := t.isLt; omega
  rw [out_bottom_index t p h q]
  refine (Cert.KernelIdeal.Entries.bottom_half_entry _ _ _ _ _ p q).trans ?_
  have e1 : (fun k : Fin 10000 => View.ld (blockAt m c 1 t) adjBox (ix2 p k))
      = fun k : Fin 10000 => entry m c main_arg1 (ix2 (⟨400 * t.val + 200 + p.val, h⟩ : Fin 10000) k) := funext fun k => adj_bottom_read m c t p h k
  have e2 : (fun (k : Fin 10000) (j : Fin 128) => View.ld (blockAt m c 2 t) xBox (ix2 k j))
      = fun (k : Fin 10000) (j : Fin 128) => entry m c main_arg0 (ix2 k j) := funext fun k => funext fun j => x_read m c t k j
  have e3 : (fun j : Fin 128 => View.ld (blockAt m c 3 t) wBox (ix2 j q))
      = fun j : Fin 128 => entry m c main_arg2 (ix2 j q) := funext fun j => w_read m c t j q
  rw [e1, e2, e3, x_bottom_read m c t p h q, bias_read m c t q]
  rfl

/-! ## What each point writes back, and the array at the end -/

/-- WHAT POINT `t` WRITES BACK is block `t` of the layer's result array. -/
theorem written_back (c : Dev nD) (t : Fin cfg0.N) :
    (dats m 0 c).flushed 5 t = ((cfg0.win 5).blk t).view.read (Elt Ideal) (layerOut m c) := by
  show (cfg0.win 5).cut (grid0.coords t) ((dats m 0 c).after 5 t) = _
  rw [left_5]
  funext y
  show stored (F := Ideal) (grid0.coords t) (blockAt m c 0 t) (blockAt m c 1 t) (blockAt m c 2 t) (blockAt m c 3 t) (blockAt m c 4 t) y
    = layerOut m c (((cfg0.win 5).blk t).view.emb y)
  unfold stored
  refine View.canon_apply_of_pieces (Val := Elt Ideal) (S := S400x128) (e := .f32) (fun y => layerOut m c (((cfg0.win 5).blk t).view.emb y)) _ ?_ y (halves_cover _ _ y)
  intro pc hpc
  rcases List.mem_cons.mp hpc with rfl | hpc
  · exact fun z => bottom_half_is m c t z
  · rcases List.mem_cons.mp hpc with rfl | hpc
    · exact fun z => top_half_is m c t z
    · exact absurd hpc List.not_mem_nil

/-- An index of the output array is in point `t`'s block iff each coordinate is in the block's range on its axis. -/
theorem mem_out_block (t : Fin cfg0.N) (i : S10000x128.Idx) :
    i ∈ ((cfg0.win 5).blk t).view.set ↔ ∀ a : Fin 2, win0_5.index t a * S400x128.size a ≤ (i a).val
      ∧ (i a).val < win0_5.index t a * S400x128.size a + S400x128.size a := by
  show i ∈ ((View.whole main_v0).slice (win0_5.rect t)).set ↔ _
  rw [View.set_slice_whole, Rect.mem_set_unit]
  exact Iff.rfl

/-- Every index of the output array is in the block of the point its row falls in: row r in block r / 400. -/
theorem blocks_cover (i : S10000x128.Idx) :
    ∃ t : Fin cfg0.N, (cfg0.win 5).flush t = true ∧ i ∈ ((cfg0.win 5).blk t).view.set := by
  have hi0 : (i 0).val < 10000 := (i 0).isLt
  have hi1 : (i 1).val < 128 := (i 1).isLt
  have hN : cfg0.N = 25 := N_0
  let t : Fin cfg0.N := ⟨(i 0).val / 400, by omega⟩
  have htv : t.val = (i 0).val / 400 := rfl
  obtain ⟨e00, e01, e10, e11, e20, e21, e30, e31, e40, e41, e50, e51, eg⟩ := index_maps t
  refine ⟨t, flush0_5 t, ?_⟩
  rw [mem_out_block]
  intro a
  match a with
  | ⟨0, _⟩ => show win0_5.index t (0 : Fin 2) * 400 ≤ (i 0).val ∧ (i 0).val < win0_5.index t (0 : Fin 2) * 400 + 400; omega
  | ⟨1, _⟩ => show win0_5.index t (1 : Fin 2) * 128 ≤ (i 1).val ∧ (i 1).val < win0_5.index t (1 : Fin 2) * 128 + 128; omega

/-- THE OUTPUT ARRAY after the run is the layer's result array. -/
theorem result_array (c : Dev nD) : (dats m 0 c).arrAt 5 cfg0.N = layerOut m c :=
  (dats m 0 c).arrAt_eq_of_cover 5 (layerOut m c) (fun t _ => written_back m c t) blocks_cover

/-! ## The run, with the output named -/

/-- Every weakly fair execution of @main terminates with the output array at the layer's result and the four arguments
    as launched. -/
theorem run : θ_run defs (onTc (τ := τ) (main (F := Ideal))) ⟨m, fun _ => 0, ρ⟩ (fun r => ∀ c : Dev nD,
      r.2.mem ((c.tc : Thread nD τ).loc main_v0) = layerOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 5).trans (result_array m c),
     ((h c).1 2).trans (((dats m 0 c).arrAt_in 2 rfl _).trans ((entry_is_A m c 2).trans (entry_arg0 m c))),
     ((h c).1 0).trans (((dats m 0 c).arrAt_in 0 rfl _).trans ((entry_is_A m c 0).trans (entry_arg1 m c))),
     ((h c).1 3).trans (((dats m 0 c).arrAt_in 3 rfl _).trans ((entry_is_A m c 3).trans (entry_arg2 m c))),
     ((h c).2 main_arg3 (Pipeline.mem_restRefs_of main_arg3 rfl (by decide))).trans (entry_arg3 m c)⟩) (run_region m ρ)

end Cert.KernelIdeal.Region

end
-- ==== Proof.Ideal.Result.lean ====
/-
  The layer's result over what @main was launched with. The region finds x, adj and W as launched, and the bias row is
  the bias vector recast [128] → [1, 128], whose entry (0, q) is the vector's entry q (the two have the same row-major
  position). So entry (r, q) of the output array is the layer's entry, aggregate-first, of the launch contents.
-/
import proofs.«102684_g13692355740361_cont_week2b_1267_22_alg».proof.Proof.Ideal.Array

-- membership in a rectangle of these extents is decided by a structural look that recurses once per coordinate
set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open Idealize.ShloMosaic.ValueIdx
open scoped BigOperators

variable (m : (ℓ : Loc nD τ sig) → Buf (Elt Ideal) ℓ) (ρ : Dev nD → PrngReg)

/-- The bias row the region finds, at (0, q): the bias vector's entry q. -/
theorem bias_row (c : Dev nD) (q : Fin 128) :
    entry m c main_call0_v0 (ix2 (0 : Fin 1) q) = m ((c.tc : Thread nD τ).loc main_arg3) (ix1 q) := by
  have e : (entry m c main_call0_v0 : S1x128.Idx → EReal)
      = shapeCast S1x128 (m ((c.tc : Thread nD τ).loc main_arg3)) shapeCasts_S128_S1x128 := by
    dsimp only [entry, hostOps0]; after_results; rfl
  rw [e]
  refine shapeCast_apply _ _ (ix2 (0 : Fin 1) q) (ix1 q) ?_
  rw [Shape.rowMajor_val_one, Shape.rowMajor_val_two]
  show q.val = 0 * 128 + q.val
  omega

/-- Entry (r, q) of the result array, over the launch contents. -/
theorem layerOut_launch (c : Dev nD) (r : Fin 10000) (q : Fin 128) :
    layerOut m c (ix2 r q)
      = Cert.GraphLayer.aggregateFirst (fun k : Fin 10000 => m ((c.tc : Thread nD τ).loc main_arg1) (ix2 r k))
          (fun (k : Fin 10000) (j : Fin 128) => m ((c.tc : Thread nD τ).loc main_arg0) (ix2 k j))
          (fun j : Fin 128 => m ((c.tc : Thread nD τ).loc main_arg2) (ix2 j q))
          (m ((c.tc : Thread nD τ).loc main_arg0) (ix2 r q)) (m ((c.tc : Thread nD τ).loc main_arg3) (ix1 q)) := by
  show layerAt m c r q = _
  unfold layerAt
  rw [entry_arg0, entry_arg1, entry_arg2, bias_row]

end Cert.KernelIdeal.Region

end
-- ==== Proof.Value.Reference.lean ====
/-
  The reference's result, read at an entry. The reference multiplies the features by the weights first (x · W, a sum
  over the 128 features), then the adjacency matrix by that (a sum over the 10000 nodes), adds the bias vector spread
  over the rows, adds x back and takes the maximum with zero: at (r, c) the layer's entry in the project-first order,
  of row r of adj, all of x, column c of W, the residual entry x (r, c) and the bias entry b (c).
-/
import proofs.«102684_g13692355740361_cont_week2b_1267_22_alg».proof.Proof.Gen.ReferenceIdeal.Read
import proofs.«102684_g13692355740361_cont_week2b_1267_22_alg».proof.Proof.LibLayerOrders
import Idealize.ShloMosaic.Lib.ValueIdx
import Idealize.ShloMosaic.PureOps.Ideal.Laws

noncomputable section

open scoped BigOperators

namespace Cert.ReferenceIdeal.Entries

open Idealize.ShloMosaic Idealize.ShloMosaic.ValueIdx Cert.ReferenceIdeal Cert.ReferenceIdeal.Read

/-! ## Where each operation reads its operands, at (r, c) -/

theorem adj_at (r : Fin 10000) (c : Fin 128) (k : Fin 10000) : lidx_main_v1 (ix2 r c) k = ix2 r k :=
  funext fun a => Fin.ext (by match a with | ⟨0, _⟩ => rfl | ⟨1, _⟩ => rfl)
theorem support_at (r : Fin 10000) (c : Fin 128) (k : Fin 10000) : ridx_main_v1 (ix2 r c) k = ix2 k c :=
  funext fun a => Fin.ext (by match a with | ⟨0, _⟩ => rfl | ⟨1, _⟩ => rfl)
theorem feature_at (k : Fin 10000) (c : Fin 128) (j : Fin 128) : lidx_main_v0 (ix2 k c) j = ix2 k j :=
  funext fun a => Fin.ext (by match a with | ⟨0, _⟩ => rfl | ⟨1, _⟩ => rfl)
theorem weight_at (k : Fin 10000) (c : Fin 128) (j : Fin 128) : ridx_main_v0 (ix2 k c) j = ix2 j c :=
  funext fun a => Fin.ext (by match a with | ⟨0, _⟩ => rfl | ⟨1, _⟩ => rfl)
theorem bias_at (r : Fin 10000) (c : Fin 128) : idx_main_v2 (idx_main_v3 (ix2 r c)) = ix1 c :=
  funext fun a => Fin.ext (by match a with | ⟨0, _⟩ => rfl)

/-! ## The result at (r, c) -/

theorem result_entry (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal))
    (r : Fin 10000) (c : Fin 128) :
    val_main_v6 (F := Ideal) x0 x1 x2 x3 (ix2 r c)
      = Cert.GraphLayer.projectFirst (fun k : Fin 10000 => x1 (ix2 r k)) (fun (k : Fin 10000) (j : Fin 128) => x0 (ix2 k j))
          (fun j : Fin 128 => x2 (ix2 j c)) (x0 (ix2 r c)) (x3 (ix1 c)) := by
  rw [val_main_v6_apply, val_main_v5_apply, val_main_v4_apply, val_main_v1_apply, val_main_v3_apply, val_main_v2_apply,
    val_main_call0_v0_apply, val_main_call0_cst_apply]
  simp only [val_main_v0_apply, adj_at, support_at, feature_at, weight_at, bias_at,
    Ideal.maximumf_def, Ideal.addf_def, Ideal.ofBits_def, Ideal.ofBits_zero_f32]
  rfl

end Cert.ReferenceIdeal.Entries

end
-- ==== Proof.Value.Finite.lean ====
/-
  Real entries from the precondition. `finite_inputs` says that the conjunction of four `all (|·| < +inf)` tests, one per
  argument, is true. An extended real whose absolute value max (z, -z) is below +inf is neither infinity, hence a real
  number; so every entry of x, adj and W is real (the bias vector's entries too, which the proof does not need).
-/
import proofs.«102684_g13692355740361_cont_week2b_1267_22_alg».proof.Pre_finite_inputs
import proofs.«102684_g13692355740361_cont_week2b_1267_22_alg».proof.Proof.Gen.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.Pre_finite_inputs.Decode

open Idealize.ShloMosaic Cert.Pre_finite_inputs Cert.Pre_finite_inputs.Facts

/-- The scalar shape has one index. -/
instance : Subsingleton S_.Idx := ⟨fun a b => funext fun d => d.elim0⟩

/-- An extended real whose absolute value is below +inf is a real number. -/
theorem real_of_abs_lt (z : EReal) (h : Ideal.cmp .olt (max z (-z)) (Ideal.ofBits .f32 0x7F800000#32) = 1#1) :
    ∃ r : ℝ, z = r := by
  have htop : Ideal.ofBits .f32 0x7F800000#32 = ⊤ := by simp [Ideal.ofBits, Ideal.ieee]
  rw [htop] at h
  induction z using EReal.rec with
  | bot => simp [Ideal.cmp] at h
  | coe r => exact ⟨r, rfl⟩
  | top => simp [Ideal.cmp] at h

/-- Under `finite_inputs` every entry of x, of adj and of W is a real number. -/
theorem reals_of_finite (x0 : FVec Ideal S10000x128 .f32) (x1 : FVec Ideal S10000x10000 .f32) (x2 : FVec Ideal S128x128 .f32)
    (x3 : FVec Ideal S128 .f32) (h : fn (F := Ideal) x0 x1 x2 x3 = fun _ => 1#1) :
    (∀ i, ∃ r : ℝ, x0 i = r) ∧ (∀ i, ∃ r : ℝ, x1 i = r) ∧ (∀ i, ∃ r : ℝ, x2 i = r) := by
  have h0 := congrFun h ValueIdx.ix0
  dsimp only [fn, fn_part1] at h0
  obtain ⟨h012, -⟩ := IntOp.andi_eq_one.mp h0
  obtain ⟨h01, hW⟩ := IntOp.andi_eq_one.mp h012
  obtain ⟨hX, hA⟩ := IntOp.andi_eq_one.mp h01
  refine ⟨fun i => ?_, fun i => ?_, fun i => ?_⟩
  · exact real_of_abs_lt _ (Host.reduce_andi_all _ _ reducesTo_S10000x128_S_d0_1 h_S_ _ hX i)
  · exact real_of_abs_lt _ (Host.reduce_andi_all _ _ reducesTo_S10000x10000_S_d0_1 h_S_ _ hA i)
  · exact real_of_abs_lt _ (Host.reduce_andi_all _ _ reducesTo_S128x128_S_d0_1 h_S_ _ hW i)

end Cert.Pre_finite_inputs.Decode

end
-- ==== Proof.lean ====
/-
  The certificate of a residual graph-convolution layer, out = max (adj · (x · W) + b + x, 0), computed by one Pallas
  kernel against its jnp reference.

  The kernel walks the 10000 rows of the dense adjacency matrix in 25 grid points of 400 rows, fetching the rows as
  two 200-row blocks through two windows on the one array adj, with x, W and the bias row resident; per half it
  computes max ((rows · x) · W + x_rows + bias, 0) and stores it into its half of a 400 × 128 output block.
  - The three frames. The two kernel programs (word-level and idealized, one text) run through the pipeline's launch
    theorem for windows that may share an array, adj's share halved between its two windows (Bits/Run, Ideal/Run); the
    reference is a straight line of host operations, whose run is generated.
  - The idealization rewrote nothing, so it preserves the kernel trivially.
  - The values agree on the extended reals: every written-back block is a block of one whole-array function, the layer's
    entry with the adjacency rows aggregated first (Ideal/Array); the reference's result is the layer's entry with the
    features projected first (Value/Reference); the two double sums are one once products distribute over sums, which
    holds because the precondition makes every entry of x, adj and W a real number (Value/Layer, Value/Finite); the
    three addends are reordered by commutativity and associativity alone.
-/
import proofs.«102684_g13692355740361_cont_week2b_1267_22_alg».proof.Defs
import proofs.«102684_g13692355740361_cont_week2b_1267_22_alg».proof.Proof.Gen.Kernel
import proofs.«102684_g13692355740361_cont_week2b_1267_22_alg».proof.Proof.Gen.KernelIdeal
import proofs.«102684_g13692355740361_cont_week2b_1267_22_alg».proof.Proof.Gen.ReferenceIdeal
import proofs.«102684_g13692355740361_cont_week2b_1267_22_alg».proof.Proof.Gen.ReferenceIdeal.Run
import proofs.«102684_g13692355740361_cont_week2b_1267_22_alg».proof.Proof.Gen.ReferenceIdeal.Read
import proofs.«102684_g13692355740361_cont_week2b_1267_22_alg».proof.Proof.Gen.Pre_finite_inputs
import proofs.«102684_g13692355740361_cont_week2b_1267_22_alg».proof.Proof.Bits.Run
import proofs.«102684_g13692355740361_cont_week2b_1267_22_alg».proof.Proof.Ideal.Result
import proofs.«102684_g13692355740361_cont_week2b_1267_22_alg».proof.Proof.Value.Reference
import proofs.«102684_g13692355740361_cont_week2b_1267_22_alg».proof.Proof.Value.Finite
import Idealize.ShloMosaic.Adequacy
import Idealize.ShloMosaic.Init

noncomputable section

namespace Cert.Proof

open Idealize.ShloMosaic Idealize.ShloMosaic.ValueIdx Idealize.SL.Sem

/-- The word-level kernel runs to the end and leaves its arguments as launched. -/
theorem frame_kernel : Cert.frame_Kernel := fun m ρ _ => Cert.Kernel.Region.frame m ρ

/-- So does the idealized kernel. -/
theorem frame_kernelIdeal : Cert.frame_KernelIdeal := fun m ρ _ => Cert.KernelIdeal.Region.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- On the extended reals both programs end with the layer's result: the kernel's array holds the aggregate-first entry
    at every index, the reference's the project-first entry, and for real x, adj and W those are one number. -/
theorem algebraic : Cert.algebraic_KernelIdeal_ReferenceIdeal := by
  intro m ρ m' ρ' hpre hagree
  refine ⟨fun c => Cert.KernelIdeal.Region.layerOut m c, Cert.KernelIdeal.Region.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  show Cert.ReferenceIdeal.Read.val_main_v6 (F := Ideal) _ _ _ _ = _
  funext i
  obtain ⟨r, q, rfl⟩ : ∃ (r : Fin 10000) (q : Fin 128), i = ix2 r q := ⟨i 0, i 1, eq_ix2 i⟩
  rw [Cert.ReferenceIdeal.Entries.result_entry]
  refine Eq.trans ?_ (Cert.KernelIdeal.Region.layerOut_launch m c r q).symm
  obtain ⟨hx, ha, hw⟩ := Cert.Pre_finite_inputs.Decode.reals_of_finite _ _ _ _ (hpre c)
  exact (Cert.GraphLayer.aggregateFirst_eq_projectFirst _ _ _ _ _ (fun k => ha _) (fun k j => hx _) (fun j => hw _)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
